-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x4096 : Shape := ⟨2, ![4096, 4096]⟩
abbrev S4096x8192 : Shape := ⟨2, ![4096, 8192]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg4 : FVec F S4096x8192 .f32) (main_arg5 : FVec F S4096x8192 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  main_v28

def fn {F : FTy → Type} [FloatOps F] (main_arg0 : FVec F S1x4096 .f32) (main_arg1 : FVec F S4096x4096 .f32) (main_arg2 : FVec F S4096x4096 .f32) (main_arg3 : FVec F S4096x4096 .f32) (main_arg4 : FVec F S4096x8192 .f32) (main_arg5 : FVec F S4096x8192 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S1x4096 : Shape := ⟨2, ![1, 4096]⟩
abbrev S4096x4096 : Shape := ⟨2, ![4096, 4096]⟩
abbrev S4096x8192 : Shape := ⟨2, ![4096, 8192]⟩
abbrev S4096x1 : Shape := ⟨2, ![4096, 1]⟩
abbrev S256x4096 : Shape := ⟨2, ![256, 4096]⟩
abbrev S1x256 : Shape := ⟨2, ![1, 256]⟩
abbrev S256x1 : Shape := ⟨2, ![256, 1]⟩
abbrev S4096x512 : Shape := ⟨2, ![4096, 512]⟩
abbrev S1x512 : Shape := ⟨2, ![1, 512]⟩
abbrev S1x1 : Shape := ⟨2, ![1, 1]⟩

abbrev nBuf : Space → Nat
  | .hbm => 11
  | .vmem => 23
  | .smem => 0
  | _ => 0

abbrev bufTy : (tb : Table) → Fin (tcTables nBuf tb) → BufTy
  | .hbm, ⟨0, _⟩ => ⟨S1x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x8192, .f32⟩
  | .hbm, ⟨5, _⟩ => ⟨S4096x8192, .f32⟩
  | .hbm, ⟨6, _⟩ => ⟨S4096x1, .f32⟩
  | .hbm, ⟨7, _⟩ => ⟨S1x4096, .f32⟩
  | .hbm, ⟨8, _⟩ => ⟨S4096x1, .f32⟩
  | .hbm, ⟨9, _⟩ => ⟨S4096x1, .f32⟩
  | .hbm, ⟨10, _⟩ => ⟨S4096x1, .f32⟩
  | .local _ .vmem, ⟨0, _⟩ => ⟨S1x4096, .f32⟩
  | .local _ .vmem, ⟨1, _⟩ => ⟨S4096x1, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x256, .f32⟩
  | .local _ .vmem, ⟨9, _⟩ => ⟨S1x256, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S1x4096, .f32⟩
  | .local _ .vmem, ⟨15, _⟩ => ⟨S4096x1, .f32⟩
  | .local _ .vmem, ⟨16, _⟩ => ⟨S4096x1, .f32⟩
  | .local _ .vmem, ⟨17, _⟩ => ⟨S4096x512, .f32⟩
  | .local _ .vmem, ⟨18, _⟩ => ⟨S4096x512, .f32⟩
  | .local _ .vmem, ⟨19, _⟩ => ⟨S4096x512, .f32⟩
  | .local _ .vmem, ⟨20, _⟩ => ⟨S4096x512, .f32⟩
  | .local _ .vmem, ⟨21, _⟩ => ⟨S4096x1, .f32⟩
  | .local _ .vmem, ⟨22, _⟩ => ⟨S4096x1, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_scratch0 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_12 : BitVec 32 := 0#32
  let v19 : BitVec 1 := Scalar.cmpi .ne v18 c0_i32_12
  v19

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4096x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  transposes_S1x4096_S4096x1_1_0 : S1x4096.Transposes [1, 0] S4096x1
  inb_S1x4096_S1x4096_0_0 : ∀ a, (![0, 0] : Fin 2 → Nat) a + S1x4096.size a ≤ S1x4096.size a
  h_S1x4096 : 0 < S1x4096.numel
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S256x1_S256x1_0_0 : ∀ a, (![0, 0] : Fin 2 → Nat) a + S256x1.size a ≤ S256x1.size a
  h_S256x1 : 0 < S256x1.numel
  shapeCasts_S1x4096_S1x4096 : S1x4096.ShapeCasts S1x4096
  inb_S4096x512_S4096x512_0_0 : ∀ a, (![0, 0] : Fin 2 → Nat) a + S4096x512.size a ≤ S4096x512.size a
  h_S4096x512 : 0 < S4096x512.numel
  broadcasts_S1x1_S4096x1 : S1x1.Broadcasts S4096x1
  dot_S1x4096_S256x4096_S1x256_1_1_0_0_n_n_wf : DotDims.WF S1x4096 S256x4096 S1x256 [1] [1] [0] [0] [] []
  dot_S256x4096_S4096x1_S256x1_1_0_0_1_n_n_wf : DotDims.WF S256x4096 S4096x1 S256x1 [1] [0] [0] [1] [] []
  dot_S1x4096_S4096x512_S1x512_1_0_0_1_n_n_wf : DotDims.WF S1x4096 S4096x512 S1x512 [1] [0] [0] [1] [] []
  dot_S4096x512_S1x512_S4096x1_1_1_0_0_n_n_wf : DotDims.WF S4096x512 S1x512 S4096x1 [1] [1] [0] [0] [] []
  dot_S1x4096_S4096x1_S1x1_1_0_0_1_n_n_wf : DotDims.WF S1x4096 S4096x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .f32 = 32 ∨ (Rect.block (s := S4096x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S4096x1.size a
  hwx0_7 : ∀ i : grid0.Coords, EltTy.bits .f32 = 32 ∨ (Rect.block (s := S4096x1) S256x1.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S4096x1.size a
  hwx1_1 : ∀ i : grid1.Coords, EltTy.bits .f32 = 32 ∨ (Rect.block (s := S4096x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S4096x1.size a
  hwx1_2 : ∀ i : grid1.Coords, EltTy.bits .f32 = 32 ∨ (Rect.block (s := S4096x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x8192.size a
  hwx1_3 : ∀ i : grid1.Coords, EltTy.bits .f32 = 32 ∨ (Rect.block (s := S4096x8192) S4096x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x512.size a ≤ S4096x8192.size a
  hwx1_4 : ∀ i : grid1.Coords, EltTy.bits .f32 = 32 ∨ (Rect.block (s := S4096x8192) S4096x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x1.size a ≤ S4096x1.size a
  hwx1_5 : ∀ i : grid1.Coords, EltTy.bits .f32 = 32 ∨ (Rect.block (s := S4096x1) S4096x1.size (cc1_transform_5 i) (hinb1_5 i)).WholeWords (EltTy.packing .f32)

variable [Facts₀]

def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf
def dot_S256x4096_S4096x1_S256x1_1_0_0_1_n_n : DotDims S256x4096 S4096x1 S256x1 where
  lhsContracting := [1]
  rhsContracting := [0]
  lhsNonContracting := [0]
  rhsNonContracting := [1]
  lhsBatch := []
  rhsBatch := []
  wf := dot_S256x4096_S4096x1_S256x1_1_0_0_1_n_n_wf
def dot_S1x4096_S4096x512_S1x512_1_0_0_1_n_n : DotDims S1x4096 S4096x512 S1x512 where
  lhsContracting := [1]
  rhsContracting := [0]
  lhsNonContracting := [0]
  rhsNonContracting := [1]
  lhsBatch := []
  rhsBatch := []
  wf := dot_S1x4096_S4096x512_S1x512_1_0_0_1_n_n_wf
def dot_S4096x512_S1x512_S4096x1_1_1_0_0_n_n : DotDims S4096x512 S1x512 S4096x1 where
  lhsContracting := [1]
  rhsContracting := [1]
  lhsNonContracting := [0]
  rhsNonContracting := [0]
  lhsBatch := []
  rhsBatch := []
  wf := dot_S4096x512_S1x512_S4096x1_1_1_0_0_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

abbrev win0_0 : Pipeline.Window sig grid0 :=
  Pipeline.Window.ofSpec (Memref.whole main_arg0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1_0) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S4096x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S4096x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S4096x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S4096x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S4096x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1x4096 : Shape := ⟨2, ![1, 4096]⟩
abbrev S4096x4096 : Shape := ⟨2, ![4096, 4096]⟩
abbrev S4096x8192 : Shape := ⟨2, ![4096, 8192]⟩
abbrev S4096x1 : Shape := ⟨2, ![4096, 1]⟩
abbrev S4096x8193 : Shape := ⟨2, ![4096, 8193]⟩
abbrev S1x8193 : Shape := ⟨2, ![1, 8193]⟩
abbrev S_ : Shape := ⟨0, ![]⟩
abbrev S8193x1 : Shape := ⟨2, ![8193, 1]⟩

abbrev nBuf : Space → Nat
  | .hbm => 28
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x8192, .f32⟩
  | .hbm, ⟨5, _⟩ => ⟨S4096x8192, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x8193, .f32⟩
  | .hbm, ⟨11, _⟩ => ⟨S4096x8193, .f32⟩
  | .hbm, ⟨12, _⟩ => ⟨S1x4096, .f32⟩
  | .hbm, ⟨13, _⟩ => ⟨S1x8193, .f32⟩
  | .hbm, ⟨14, _⟩ => ⟨S_, .f32⟩
  | .hbm, ⟨15, _⟩ => ⟨S_, .f32⟩
  | .hbm, ⟨16, _⟩ => ⟨S1x8193, .f32⟩
  | .hbm, ⟨17, _⟩ => ⟨S1x8193, .f32⟩
  | .hbm, ⟨18, _⟩ => ⟨S1x8193, .f32⟩
  | .hbm, ⟨19, _⟩ => ⟨S1x8193, .f32⟩
  | .hbm, ⟨20, _⟩ => ⟨S_, .f32⟩
  | .hbm, ⟨21, _⟩ => ⟨S1x8193, .f32⟩
  | .hbm, ⟨22, _⟩ => ⟨S1x8193, .f32⟩
  | .hbm, ⟨23, _⟩ => ⟨S_, .f32⟩
  | .hbm, ⟨24, _⟩ => ⟨S1x8193, .f32⟩
  | .hbm, ⟨25, _⟩ => ⟨S1x8193, .f32⟩
  | .hbm, ⟨26, _⟩ => ⟨S8193x1, .f32⟩
  | .hbm, ⟨27, _⟩ => ⟨S4096x1, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  transposes_S1x4096_S4096x1_1_0 : S1x4096.Transposes [1, 0] S4096x1
  concatenates_S4096x8192_S4096x1_S4096x8193_d1 : Shape.Concatenates [S4096x8192, S4096x1] S4096x8193 1
  shapeCasts_S4096x1_S1x4096 : S4096x1.ShapeCasts S1x4096
  bcast_S_S1x8193 : S_.BroadcastsInDim S1x8193 (![] : Fin 0 → Fin S1x8193.rank)
  shapeCasts_S1x8193_S8193x1 : S1x8193.ShapeCasts S8193x1
  dot_S4096x4096_S4096x1_S4096x1_1_0_0_1_n_n_wf : DotDims.WF S4096x4096 S4096x1 S4096x1 [1] [0] [0] [1] [] []
  dot_S1x4096_S4096x8193_S1x8193_1_0_0_1_n_n_wf : DotDims.WF S1x4096 S4096x8193 S1x8193 [1] [0] [0] [1] [] []
  dot_S4096x8193_S8193x1_S4096x1_1_0_0_1_n_n_wf : DotDims.WF S4096x8193 S8193x1 S4096x1 [1] [0] [0] [1] [] []

variable [Facts₀]

def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf
def dot_S1x4096_S4096x8193_S1x8193_1_0_0_1_n_n : DotDims S1x4096 S4096x8193 S1x8193 where
  lhsContracting := [1]
  rhsContracting := [0]
  lhsNonContracting := [0]
  rhsNonContracting := [1]
  lhsBatch := []
  rhsBatch := []
  wf := dot_S1x4096_S4096x8193_S1x8193_1_0_0_1_n_n_wf
def dot_S4096x8193_S8193x1_S4096x1_1_0_0_1_n_n : DotDims S4096x8193 S8193x1 S4096x1 where
  lhsContracting := [1]
  rhsContracting := [0]
  lhsNonContracting := [0]
  rhsNonContracting := [1]
  lhsBatch := []
  rhsBatch := []
  wf := dot_S4096x8193_S8193x1_S4096x1_1_0_0_1_n_n_wf

class Facts : Prop extends Facts₀ where

variable [Facts]
-- ==== Proof.Spec.lean ====
/-
  The mathematics of one decoding step of sigmoid-scored attention over a growing key/value cache, stated once,
  index by index, over the extended reals.

  From a token embedding `x` (a row of 4096 entries) and three 4096 × 4096 projection matrices the step forms the
  query `q`, the new key `k` and the new value `v` (each the matrix applied to `x`); every cached column `τ` of the
  4096 × 8192 key cache gets the weight `σ((q · K[:,τ]) / 64)` — `σ` the logistic function, `64 = √4096`, the factor
  written as the exact binary fraction `2⁻⁶` —, the new key the weight `σ((q · k) / 64)`, and the result is the
  weighted sum of the value cache's columns plus the weighted new value.
-/
import Idealize.ShloMosaic.PureOps.Ideal
import Idealize.ShloMosaic.Lib.ValueIdx

noncomputable section

open scoped BigOperators

namespace Cert.Spec

open Idealize.ShloMosaic Idealize.ShloMosaic.ValueIdx

/-- A row of 4096 entries. -/
abbrev Row : Type := (⟨2, ![1, 4096]⟩ : Shape).Idx → EReal
/-- A column of 4096 entries. -/
abbrev Col : Type := (⟨2, ![4096, 1]⟩ : Shape).Idx → EReal
/-- A 4096 × 4096 matrix. -/
abbrev Mat : Type := (⟨2, ![4096, 4096]⟩ : Shape).Idx → EReal
/-- A cache of 8192 columns of 4096 entries. -/
abbrev Cache : Type := (⟨2, ![4096, 8192]⟩ : Shape).Idx → EReal

/-- The scale `2⁻⁶ = 1 / √4096`, as the binary fraction both programs' arithmetic meets. -/
def scale : EReal := Ideal.ofBits .f32 0x3C800000#32

/-- The weight of a score: the logistic function of the scaled score. -/
def wgt (s : EReal) : EReal := Ideal.logistic (s * scale)

/-- Entry `d` of a matrix applied to the embedding: `∑ₑ W[d,e] · x[e]`. -/
def proj (W : Mat) (x : Row) (d : Fin 4096) : EReal := ∑ e : Fin 4096, W (ix2 d e) * x (ix2 0 e)

/-- Entry `d` of the attention result from a query `q`, a new key `k`, a new value `v` and the two caches: the value
    cache's row `d` weighted column by column by the scores of `q` against the key cache, plus the new value's entry
    weighted by the score of `q` against the new key. -/
def attn (q k v : Fin 4096 → EReal) (Kc Vc : Cache) (d : Fin 4096) : EReal :=
  (∑ τ : Fin 8192, Vc (ix2 d τ) * wgt (∑ d' : Fin 4096, q d' * Kc (ix2 d' τ)))
    + v d * wgt (∑ d' : Fin 4096, q d' * k d')

/-- Entry `d` of the whole step, from the six argument arrays. -/
def step (x : Row) (Wq Wk Wv : Mat) (Kc Vc : Cache) (d : Fin 4096) : EReal :=
  attn (proj Wq x) (proj Wk x) (proj Wv x) Kc Vc d

end Cert.Spec

end
-- ==== Proof.LibJoinColumns.lean ====
/-
  Two matrices of the same number of rows laid side by side, read at an entry.

  Joining an [n, c₁] matrix and an [n, c₂] matrix along the column axis gives an [n, c₁ + c₂] matrix whose entry
  (r, q) is the first matrix's entry (r, q) when q < c₁ and the second's entry (r, q − c₁) otherwise. This is the
  two-piece concatenation read at an index given by its coordinates, with the case split on the column written out.
-/
import Idealize.ShloMosaic.Lib.Pipeline.Value
import Idealize.ShloMosaic.Lib.ValueIdx

namespace Idealize.ShloMosaic.ValueIdx

open Idealize.ShloMosaic

/-- Entry (r, q) of two matrices joined along their columns: the left matrix's entry when the column falls in it, else
    the right matrix's entry at the column less the left width. -/
theorem concatenate_columns_apply {α : Type} {n c₁ c₂ c : Nat} (hc : c = c₁ + c₂)
    (x₁ : (⟨2, ![n, c₁]⟩ : Shape).Idx → α) (x₂ : (⟨2, ![n, c₂]⟩ : Shape).Idx → α)
    (h : Shape.Concatenates [(⟨2, ![n, c₁]⟩ : Shape), ⟨2, ![n, c₂]⟩] ⟨2, ![n, c]⟩ 1) (r : Fin n) (q : Fin c) :
    concatenate ⟨2, ![n, c]⟩ 1 [⟨⟨2, ![n, c₁]⟩, x₁⟩, ⟨⟨2, ![n, c₂]⟩, x₂⟩] h (ix2 r q)
      = if hq : q.val < c₁ then x₁ (ix2 r ⟨q.val, hq⟩)
        else x₂ (ix2 r ⟨q.val - c₁, by have := q.isLt; omega⟩) := by
  by_cases hq : q.val < c₁
  · rw [dif_pos hq]
    exact concatenate_pair_apply_left 1 x₁ x₂ h (ix2 r q) rfl (ix2 r ⟨q.val, hq⟩)
      (fun b => by match b with | ⟨0, _⟩ => rfl | ⟨1, _⟩ => rfl)
  · rw [dif_neg hq]
    exact concatenate_pair_apply_right 1 x₁ x₂ h (ix2 r q) rfl rfl (ix2 r ⟨q.val - c₁, by have := q.isLt; omega⟩)
      (fun b hb => by match b with | ⟨0, _⟩ => rfl | ⟨1, _⟩ => exact absurd rfl hb)
      (by show (q.val - c₁) + c₁ = q.val; omega)

end Idealize.ShloMosaic.ValueIdx
-- ==== Proof.RefValue.lean ====
/-
  The reference computation, read entry by entry over the extended reals, is one decoding step of
  sigmoid-scored attention.

  The reference turns the embedding row into a column, applies the three projection matrices to it (query, new key,
  new value), appends the new key to the key cache and the new value to the value cache as a last column 8192,
  scores the query against each of the 8193 key columns, divides each score by the square root of 4096, passes it
  through 1 / (1 + exp (−s)), and forms the weighted sum of the 8193 value columns.

  What is shown here: the sum over the 8193 columns is the sum over the 8192 cached columns plus the term of the
  appended column; a joined matrix read at a cached column is the cache's entry and at the last column the new
  vector's entry; the square root of 4096 is 64 and division by 64 is multiplication by the binary fraction 2⁻⁶ on
  every extended real; and 1 / (1 + exp (−s)) is the logistic function by its definition. None of these steps
  needs a finite entry.
-/
import proofs.«133496_j32933809226222_1_alg».proof.Proof.Gen.ReferenceIdeal.Read
import proofs.«133496_j32933809226222_1_alg».proof.Proof.Spec
import proofs.«133496_j32933809226222_1_alg».proof.Proof.LibJoinColumns
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The three literals -/

/-- The pattern of 1.0 denotes 1. -/
theorem lit_one : Ideal.ofBits .f32 0x3F800000#32 = 1 := by
  simp [Ideal.ofBits, Ideal.ieee, -EReal.coe_mul]; norm_num

/-- The pattern of 4096.0 denotes the real 4096. -/
theorem lit_4096 : Ideal.ofBits .f32 0x45800000#32 = ((4096 : ℝ) : EReal) := by
  simp [Ideal.ofBits, Ideal.ieee, -EReal.coe_mul]; norm_num

/-- The specification's scale, the pattern of 0.015625, denotes the real 1/64. -/
theorem scale_eq : Cert.Spec.scale = ((1 / 64 : ℝ) : EReal) := by
  unfold Cert.Spec.scale
  simp [Ideal.ofBits, Ideal.ieee, -EReal.coe_mul]; norm_num

/-- The square root of 4096 is 64. -/
theorem sqrt_4096 : Ideal.sqrt ((4096 : ℝ) : EReal) = ((64 : ℝ) : EReal) := by
  rw [Ideal.sqrt_coe, if_neg (by norm_num)]
  refine congrArg _ ?_
  rw [show (4096 : ℝ) = 64 ^ 2 by norm_num]
  exact Real.sqrt_sq (by norm_num)

/-- One score turned into its weight, as the reference spells it: divided by the square root of 4096, then
    1 / (1 + exp (−·)). That is the logistic function of the score times 2⁻⁶, for every extended real score. -/
theorem weight_of_score (s : EReal) :
    Ideal.div (Ideal.ofBits .f32 0x3F800000#32)
        (Ideal.ofBits .f32 0x3F800000#32
          + Ideal.exp (-(Ideal.div s (Ideal.sqrt (Ideal.ofBits .f32 0x45800000#32)))))
      = Cert.Spec.wgt s := by
  rw [lit_one, lit_4096, sqrt_4096, Ideal.div_coe (by norm_num : (64 : ℝ) ≠ 0)]
  unfold Cert.Spec.wgt Ideal.logistic
  rw [scale_eq]

/-! ## The embedding as a column, and the three projections -/

/-- The transposed embedding's entry e is the row's entry e. -/
theorem column_apply (x0 : (⟨S1x4096, .f32⟩ : BufTy).Contents (Elt Ideal)) (e : Fin 4096) (b : Fin 1) :
    (val_main_v0 (F := Ideal) x0 : S4096x1.Idx → EReal) (ix2 e b) = x0 (ix2 0 e) := by
  rw [val_main_v0_apply]
  have h : idx_main_v0 (ix2 e b) = ix2 0 e := funext fun a => Fin.ext (by
    match a with
    | ⟨0, _⟩ => show b.val = 0; omega
    | ⟨1, _⟩ => rfl)
  rw [h]

/-- A projection matrix applied to the embedding column: entry d is the specification's projection. The three
    projections are one operation on three matrices. -/
theorem projection_apply (x0 : (⟨S1x4096, .f32⟩ : BufTy).Contents (Elt Ideal))
    (W : (⟨S4096x4096, .f32⟩ : BufTy).Contents (Elt Ideal)) (d : Fin 4096) (b : Fin 1) :
    (val_main_v1 (F := Ideal) x0 W : S4096x1.Idx → EReal) (ix2 d b) = Cert.Spec.proj W x0 d := by
  rw [val_main_v1_apply]
  unfold Cert.Spec.proj
  refine Finset.sum_congr rfl fun e _ => ?_
  have hl : lidx_main_v1 (ix2 d b) e = ix2 d e := funext fun a => Fin.ext (by
    match a with
    | ⟨0, _⟩ => rfl
    | ⟨1, _⟩ => rfl)
  have hr : ridx_main_v1 (ix2 d b) e = ix2 e b := funext fun a => Fin.ext (by
    match a with
    | ⟨0, _⟩ => rfl
    | ⟨1, _⟩ => rfl)
  rw [hl, hr, column_apply]

/-- The new key is the same operation as the query, on the key matrix. -/
theorem key_apply (x0 : (⟨S1x4096, .f32⟩ : BufTy).Contents (Elt Ideal))
    (W : (⟨S4096x4096, .f32⟩ : BufTy).Contents (Elt Ideal)) (d : Fin 4096) (b : Fin 1) :
    (val_main_v2 (F := Ideal) x0 W : S4096x1.Idx → EReal) (ix2 d b) = Cert.Spec.proj W x0 d :=
  projection_apply x0 W d b

/-- The new value is the same operation as the query, on the value matrix. -/
theorem value_apply (x0 : (⟨S1x4096, .f32⟩ : BufTy).Contents (Elt Ideal))
    (W : (⟨S4096x4096, .f32⟩ : BufTy).Contents (Elt Ideal)) (d : Fin 4096) (b : Fin 1) :
    (val_main_v3 (F := Ideal) x0 W : S4096x1.Idx → EReal) (ix2 d b) = Cert.Spec.proj W x0 d :=
  projection_apply x0 W d b

/-! ## A cache with one column appended -/

/-- A cache joined with a column, read at a cached column τ: the cache's entry. -/
theorem joined_cached (A : (⟨S4096x8192, .f32⟩ : BufTy).Contents (Elt Ideal))
    (c : (⟨S4096x1, .f32⟩ : BufTy).Contents (Elt Ideal)) (e : Fin 4096) (τ : Fin 8192) :
    (concatenate S4096x8193 1 [⟨S4096x8192, A⟩, ⟨S4096x1, c⟩] concatenates_S4096x8192_S4096x1_S4096x8193_d1
        : S4096x8193.Idx → EReal) (ix2 e τ.castSucc) = A (ix2 e τ) := by
  refine (concatenate_columns_apply (n := 4096) (c₁ := 8192) (c₂ := 1) (c := 8193) rfl A c
    concatenates_S4096x8192_S4096x1_S4096x8193_d1 e τ.castSucc).trans ?_
  rw [dif_pos (show (τ.castSucc).val < 8192 from τ.isLt)]
  rfl

/-- A cache joined with a column, read at the appended column 8192: the column's entry. -/
theorem joined_last (A : (⟨S4096x8192, .f32⟩ : BufTy).Contents (Elt Ideal))
    (c : (⟨S4096x1, .f32⟩ : BufTy).Contents (Elt Ideal)) (e : Fin 4096) :
    (concatenate S4096x8193 1 [⟨S4096x8192, A⟩, ⟨S4096x1, c⟩] concatenates_S4096x8192_S4096x1_S4096x8193_d1
        : S4096x8193.Idx → EReal) (ix2 e (Fin.last 8192)) = c (ix2 e 0) := by
  refine (concatenate_columns_apply (n := 4096) (c₁ := 8192) (c₂ := 1) (c := 8193) rfl A c
    concatenates_S4096x8192_S4096x1_S4096x8193_d1 e (Fin.last 8192)).trans ?_
  rw [dif_neg (show ¬ (Fin.last 8192).val < 8192 from Nat.lt_irrefl 8192)]
  rfl

/-! ## Scores and weights -/

/-- The score of key column τ (cached or appended): the query against that column of the joined key matrix. -/
theorem score_apply (x0 : (⟨S1x4096, .f32⟩ : BufTy).Contents (Elt Ideal))
    (x1 x2 : (⟨S4096x4096, .f32⟩ : BufTy).Contents (Elt Ideal))
    (x4 : (⟨S4096x8192, .f32⟩ : BufTy).Contents (Elt Ideal)) (a : Fin 1) (τ : Fin 8193) :
    (val_main_v7 (F := Ideal) x0 x1 x2 x4 : S1x8193.Idx → EReal) (ix2 a τ)
      = ∑ e : Fin 4096, Cert.Spec.proj x1 x0 e * (val_main_v4 (F := Ideal) x0 x2 x4 : S4096x8193.Idx → EReal) (ix2 e τ) := by
  rw [val_main_v7_apply]
  refine Finset.sum_congr rfl fun e _ => ?_
  have hl : lidx_main_v7 (ix2 a τ) e = ix2 a e := funext fun i => Fin.ext (by
    match i with
    | ⟨0, _⟩ => rfl
    | ⟨1, _⟩ => rfl)
  have hr : ridx_main_v7 (ix2 a τ) e = ix2 e τ := funext fun i => Fin.ext (by
    match i with
    | ⟨0, _⟩ => rfl
    | ⟨1, _⟩ => rfl)
  have hq : idx_main_v6 (ix2 a e) = ix2 e (0 : Fin 1) := funext fun i => Fin.ext (by
    match i with
    | ⟨0, _⟩ => show (a.val * 4096 + e.val) / 1 = e.val; omega
    | ⟨1, _⟩ => rfl)
  rw [hl, hr, val_main_v6_apply, hq, projection_apply]

/-- The weight of key column τ: the specification's weight of its score. -/
theorem weight_apply (x0 : (⟨S1x4096, .f32⟩ : BufTy).Contents (Elt Ideal))
    (x1 x2 : (⟨S4096x4096, .f32⟩ : BufTy).Contents (Elt Ideal))
    (x4 : (⟨S4096x8192, .f32⟩ : BufTy).Contents (Elt Ideal)) (τ : Fin 8193) (b : Fin 1) :
    (val_main_v17 (F := Ideal) x0 x1 x2 x4 : S8193x1.Idx → EReal) (ix2 τ b)
      = Cert.Spec.wgt (∑ e : Fin 4096, Cert.Spec.proj x1 x0 e
          * (val_main_v4 (F := Ideal) x0 x2 x4 : S4096x8193.Idx → EReal) (ix2 e τ)) := by
  have hw : idx_main_v17 (ix2 τ b) = ix2 (0 : Fin 1) τ := funext fun i => Fin.ext (by
    match i with
    | ⟨0, _⟩ => rfl
    | ⟨1, _⟩ => show (τ.val * 1 + b.val) % 8193 = τ.val; omega)
  rw [val_main_v17_apply, hw, val_main_v16_apply, val_main_v15_apply, val_main_cst_1_apply, val_main_v14_apply,
    val_main_v13_apply, val_main_cst_0_apply, val_main_v12_apply, val_main_v11_apply, val_main_v10_apply,
    val_main_v9_apply, val_main_v8_apply, val_main_cst_apply, score_apply]
  simp only [Ideal.hostDivf_def, Ideal.hostUnary_exp_def, Ideal.hostUnary_sqrt_def, Ideal.hostNegf_def,
    Ideal.negf_def, Ideal.addf_def, Ideal.ofBits_def]
  exact weight_of_score _

/-! ## The result -/

/-- Entry d of the reference's result is the specification's step of the six argument arrays. -/
theorem result_eq (x0 : (⟨S1x4096, .f32⟩ : BufTy).Contents (Elt Ideal))
    (x1 x2 x3 : (⟨S4096x4096, .f32⟩ : BufTy).Contents (Elt Ideal))
    (x4 x5 : (⟨S4096x8192, .f32⟩ : BufTy).Contents (Elt Ideal)) (d : Fin 4096) (b : Fin 1) :
    (val_main_v18 (F := Ideal) x0 x1 x2 x3 x4 x5 : S4096x1.Idx → EReal) (ix2 d b)
      = Cert.Spec.step x0 x1 x2 x3 x4 x5 d := by
  have hl : ∀ τ : Fin 8193, lidx_main_v18 (ix2 d b) τ = ix2 d τ := fun τ => funext fun i => Fin.ext (by
    match i with
    | ⟨0, _⟩ => rfl
    | ⟨1, _⟩ => rfl)
  have hr : ∀ τ : Fin 8193, ridx_main_v18 (ix2 d b) τ = ix2 τ b := fun τ => funext fun i => Fin.ext (by
    match i with
    | ⟨0, _⟩ => rfl
    | ⟨1, _⟩ => rfl)
  rw [val_main_v18_apply, Fin.sum_univ_castSucc]
  unfold Cert.Spec.step Cert.Spec.attn
  refine congrArg₂ (· + ·) (Finset.sum_congr rfl fun τ _ => ?_) ?_
  · rw [hl, hr, weight_apply]
    unfold val_main_v5 val_main_v4
    rw [joined_cached]
    refine congrArg (fun s => x5 (ix2 d τ) * Cert.Spec.wgt s) (Finset.sum_congr rfl fun e _ => ?_)
    rw [joined_cached]
  · rw [hl, hr, weight_apply]
    unfold val_main_v5 val_main_v4
    rw [joined_last, value_apply]
    refine congrArg (fun s => Cert.Spec.proj x3 x0 d * Cert.Spec.wgt s) (Finset.sum_congr rfl fun e _ => ?_)
    rw [joined_last, key_apply]

end Cert.ReferenceIdeal.RefValue

end
-- ==== Proof.K.R0Body.lean ====
/-
  The body half of the projection region (the first of the two kernel launches): what one call of the kernel body does
  to the staging buffers it is handed — three matrix products, each stored whole into one output buffer — and the
  region's proof data built from it. Generic in the arithmetic `F`.
-/
import proofs.«133496_j32933809226222_1_alg».proof.Proof.Gen.Kernel.Launch
import proofs.«133496_j32933809226222_1_alg».proof.Proof.Gen.Kernel.Skeleton
import proofs.«133496_j32933809226222_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the projection region is entered: everything below is stated at this parameter
variable (V : (c : Dev nD) → (b : Ref sig .tc) → Buf (Elt F) ((c : Thread nD τ).loc b))

/-! # The projection region: q, k and v, sixteen blocks of 256 entries each

At grid point `t` the body is handed the whole embedding twice (as a row and as a column, the same block at every
point) and rows `256 t … 256 t + 255` of each of the three projection matrices; it writes entries
`256 t … 256 t + 255` of the query (a row), of the new key and of the new value (columns). -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding as a row: one block, the same at every point, fetched once. For any proof data whose array is the entry contents and whose body leaves the
    block where it was, the buffer the body is handed holds the block of the point: if it was not fetched at this
    point, the block index has not moved since the point where it was. -/
theorem before_in0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The embedding as a column: one block, the same at every point, fetched once. For any proof data whose array is the entry contents and whose body leaves the
    block where it was, the buffer the body is handed holds the block of the point: if it was not fetched at this
    point, the block index has not moved since the point where it was. -/
theorem before_in1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The query matrix: 256 rows per point, fetched at every point. For any proof data whose array is the entry contents and whose body leaves the
    block where it was, the buffer the body is handed holds the block of the point: if it was not fetched at this
    point, the block index has not moved since the point where it was. -/
theorem before_in2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The key matrix: 256 rows per point, fetched at every point. For any proof data whose array is the entry contents and whose body leaves the
    block where it was, the buffer the body is handed holds the block of the point: if it was not fetched at this
    point, the block index has not moved since the point where it was. -/
theorem before_in3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The value matrix: 256 rows per point, fetched at every point. For any proof data whose array is the entry contents and whose body leaves the
    block where it was, the buffer the body is handed holds the block of the point: if it was not fetched at this
    point, the block index has not moved since the point where it was. -/
theorem before_in4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

/-- The whole row of 4096 entries. -/
abbrev rRow : Rect S1x4096 := Rect.unit (s := S1x4096) ![0, 0] S1x4096.size inb_S1x4096_S1x4096_0_0
/-- The whole column of 4096 entries. -/
abbrev rCol : Rect S4096x1 := Rect.unit (s := S4096x1) ![0, 0] S4096x1.size inb_S4096x1_S4096x1_0_0
/-- The whole block of 256 matrix rows. -/
abbrev rMat : Rect S256x4096 := Rect.unit (s := S256x4096) ![0, 0] S256x4096.size inb_S256x4096_S256x4096_0_0
/-- The whole block of 256 query entries. -/
abbrev rQ : Rect S1x256 := Rect.unit (s := S1x256) ![0, 0] S1x256.size inb_S1x256_S1x256_0_0
/-- The whole block of 256 key (or value) entries. -/
abbrev rKV : Rect S256x1 := Rect.unit (s := S256x1) ![0, 0] S256x1.size inb_S256x1_S256x1_0_0

/-! ## What the body leaves in each output buffer -/

/-- The query block: the one store, of the embedding row contracted with the 256 matrix rows along the 4096 axis. -/
def out0_5 (x : Vec F S1x4096 .f32) (Wq : Vec F S256x4096 .f32) : Vec F S1x256 .f32 :=
  View.canon [⟨rQ, k0_pay1 (View.ld x rRow) (View.ld Wq rMat)⟩]

/-- The key block: the one store, of the 256 matrix rows applied to the embedding column. -/
def out0_6 (Wk : Vec F S256x4096 .f32) (xc : Vec F S4096x1 .f32) : Vec F S256x1 .f32 :=
  View.canon [⟨rKV, k0_pay2 (View.ld Wk rMat) (View.ld xc rCol)⟩]

/-- The value block: the same product with the value matrix's rows. -/
def out0_7 (Wv : Vec F S256x4096 .f32) (xc : Vec F S4096x1 .f32) : Vec F S256x1 .f32 :=
  View.canon [⟨rKV, k0_pay3 (View.ld Wv rMat) (View.ld xc rCol)⟩]

/-- A store of the whole query block covers it. -/
theorem coverQ (p : Vec F S1x256 .f32) (y : S1x256.Idx) :
    ∃ pc ∈ ([⟨rQ, p⟩] : List (View.Piece (Elt F) S1x256 .f32)), y ∈ pc.1.set :=
  View.cover_of_tiled [⟨rQ, p⟩] S1x256.size (by rfl) y

/-- A store of the whole key (or value) block covers it. -/
theorem coverKV (p : Vec F S256x1 .f32) (y : S256x1.Idx) :
    ∃ pc ∈ ([⟨rKV, p⟩] : List (View.Piece (Elt F) S256x1 .f32)), y ∈ pc.1.set :=
  View.cover_of_tiled [⟨rKV, p⟩] S256x1.size (by rfl) y

/-! ## The body's triple -/

set_option maxHeartbeats 1000000 in
/-- The body on whole staging buffers: with the five inputs' buffers reading `x`, `xc`, `Wq`, `Wk`, `Wv` and the three
    outputs' holding anything, it runs to the continuation with the inputs as they were and the outputs at the three
    products. Its loads of the output buffers before each store are of values it never uses. -/
theorem sound_kernel0 (c : Dev nD) (E : Set ℕ) (i : grid0.Coords)
    (arg1 : Memref sig .tc .vmem S1x4096 .f32) (harg1 : arg1.IsWhole) (arg2 : Memref sig .tc .vmem S4096x1 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S256x4096 .f32) (harg5 : arg5.IsWhole) (arg6 : Memref sig .tc .vmem S1x256 .f32) (harg6 : arg6.IsWhole)
    (arg7 : Memref sig .tc .vmem S256x1 .f32) (harg7 : arg7.IsWhole) (arg8 : Memref sig .tc .vmem S256x1 .f32) (harg8 : arg8.IsWhole)
    (x : Vec F S1x4096 .f32) (xc : Vec F S4096x1 .f32) (Wq : Vec F S256x4096 .f32) (Wk : Vec F S256x4096 .f32) (Wv : Vec F S256x4096 .f32)
    (K : PUnit → sProp 𝕄) :
    iprop(owns (c : Thread nD τ) arg1 fullShare x ∗ owns (c : Thread nD τ) arg2 fullShare xc ∗ owns (c : Thread nD τ) arg3 fullShare Wq
        ∗ owns (c : Thread nD τ) arg4 fullShare Wk ∗ owns (c : Thread nD τ) arg5 fullShare Wv
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare xc ∗ owns (c : Thread nD τ) arg3 fullShare Wq
            ∗ owns (c : Thread nD τ) arg4 fullShare Wk ∗ owns (c : Thread nD τ) arg5 fullShare Wv
            ∗ owns (c : Thread nD τ) arg6 fullShare (out0_5 x Wq) ∗ owns (c : Thread nD τ) arg7 fullShare (out0_6 Wk xc)
            ∗ owns (c : Thread nD τ) arg8 fullShare (out0_7 Wv xc)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverQ _)
  isplitl [H6]
  · iexists _; isplitr
    swap; · iexact H6
    ipureintro
    exact View.read_writes_eq_canon _ _ _ (coverKV _)
  iexists _; isplitr
  swap; · iexact H7
  ipureintro
  exact View.read_writes_eq_canon _ _ _ (coverKV _)

/-! ## The region's proof data -/

/-- The proof data of the projection region on core `c`: the arrays as the region finds them; after the body at point
    `t` each input's buffer still at its block and the three outputs' at the products of the point's blocks; the
    invariant is the untouched rest of the core's memory; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 2 t)
    | ⟨6, _⟩ => out0_6 (iblk0 V c 3 t) (iblk0 V c 1 t)
    | ⟨7, _⟩ => out0_7 (iblk0 V c 4 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 3 t) (iblk0 V c 1 t) := by dsimp only [dat0]
theorem after0_7 (c : Dev nD) (t : Fin cfg0.N) : (dat0 V c).after 7 t = out0_7 (iblk0 V c 4 t) (iblk0 V c 1 t) := by dsimp only [dat0]

/-- Each input's current staging buffer holds its block at every point. -/
theorem before0_0 (c : Dev nD) (t : Fin cfg0.N) (d) : (dat0 V c).before 0 t d = iblk0 V c 0 t :=
  before_in0_of V (dat0 V c) (A_eq0 V c 0) (after0_0 V c) t d
theorem before0_1 (c : Dev nD) (t : Fin cfg0.N) (d) : (dat0 V c).before 1 t d = iblk0 V c 1 t :=
  before_in1_of V (dat0 V c) (A_eq0 V c 1) (after0_1 V c) t d
theorem before0_2 (c : Dev nD) (t : Fin cfg0.N) (d) : (dat0 V c).before 2 t d = iblk0 V c 2 t :=
  before_in2_of V (dat0 V c) (A_eq0 V c 2) (after0_2 V c) t d
theorem before0_3 (c : Dev nD) (t : Fin cfg0.N) (d) : (dat0 V c).before 3 t d = iblk0 V c 3 t :=
  before_in3_of V (dat0 V c) (A_eq0 V c 3) (after0_3 V c) t d
theorem before0_4 (c : Dev nD) (t : Fin cfg0.N) (d) : (dat0 V c).before 4 t d = iblk0 V c 4 t :=
  before_in4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.R1Runs.lean ====
/- Region 1 (the attention call) — what its three whole-body runs and the body obligation share.
   The region's grid has 16 points. The body keeps a 4096x1 accumulator in a scratch buffer that lives across
   points: it clears it at point 0, adds one cache block's contribution at every point, and at point 15 also adds
   the new column's contribution and copies the accumulator to the output window. This file fixes: a window's
   block read off the array the region finds (at a PARAMETER V, the buffer contents on entry); the two branch
   conditions as propositions decided over the 16 points; where the output window is idle; the scratch as a memref;
   and the region invariant of the class split into "the other call's staging buffers", "the scratch" and "the
   generator register". -/
import proofs.«133496_j32933809226222_1_alg».proof.Proof.Gen.Kernel.Launch
import proofs.«133496_j32933809226222_1_alg».proof.Proof.Gen.Kernel.Skeleton
import proofs.«133496_j32933809226222_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Entry
-- the buffer contents on entry to the region: everything below is stated at this parameter
variable (V : (c : Dev nD) → (b : Ref sig .tc) → Buf (Elt F) ((c : Thread nD τ).loc b))

/-- Window `w`'s block at point `t`: the entries of its array (as the region finds it) that the window's index map
    selects there. Windows 0, 1, 2 (q, k, v) have one block, the whole array; windows 3 and 4 (the two caches) have
    the 512 columns starting at 512·t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there or
    not (an unfetched window's block index has not moved since the last fetch), for any proof data over `V` whose body
    leaves the inputs in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two branch conditions -/

/-- "this is the first point": the condition of the conditional that clears the accumulator. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- "this is the last point": the condition of the conditional that adds the new column and writes the output. -/
abbrev cond1_1 (i : grid1.Coords) : Prop := k1_cond2 i = 1#1
/-- It holds at point 15 only. -/
theorem hcond1_1 : ∀ t : Fin cfg1.N, cond1_1 (grid1.coords t) ↔ t.val = 15 :=
  (by decide +kernel : ∀ t : Fin grid1.N, cond1_1 (grid1.coords t) ↔ t.val = 15)

/-! ## Where the output window is idle -/

/-- Away from the last point the body stores nothing into the output window, -/
theorem idleAt1_5 : ∀ t : Fin cfg1.N, ¬cond1_1 (grid1.coords t) → cfg1.idle 5 (grid1.coords t) = true := by decide +kernel
/-- and the pipeline does not write its block back there; -/
theorem noFlush1_5 : ∀ t : Fin cfg1.N, ¬cond1_1 (grid1.coords t) → (cfg1.win 5).flush t = false := by decide +kernel
/-- at the last point the window is live. -/
theorem liveAt1_5 : ∀ t : Fin cfg1.N, cond1_1 (grid1.coords t) → cfg1.idle 5 (grid1.coords t) = false := by decide +kernel

/-! ## The scratch accumulator and the region invariant -/

/-- The accumulator: a whole scoped buffer of the kernel's own, passed to the body beside the windows. -/
abbrev scM1 : Memref sig .tc .vmem S4096x1 .f32 := Memref.whole cc1_scratch0

/-- The region invariant with the accumulator holding `S`: the first call's fourteen staging buffers at some contents
    each (this region never touches them), the accumulator as `S` says, the generator register at some state. -/
def inv1 (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ S) ∗ (∃ r, prngReg c r))

/-- The class's invariant is `inv1` with the accumulator owned at some contents. -/
theorem PhiA1_eq (c : Dev nD) :
    (Pipeline.ΦA spec1 c : sProp 𝕄) = inv1 c iprop(∃ d, owns (c : Thread nD τ) scM1 fullShare d) := by
  unfold Pipeline.ΦA inv1; rw [scopedRest1_eq]; simp only [scM1, owns_whole]; try rfl

end Cert.Kernel.R1

end
-- ==== Proof.K.R1RunA.lean ====
/- Region 1, the run of the body at the FIRST point (the clearing conditional taken, the closing one not): on whole
   staging memrefs holding the five input blocks, the output window's buffer at anything (handed back untouched:
   the window is idle here) and the accumulator at anything, the body runs to a state with the inputs as they were
   and the accumulator written by two whole-buffer stores — the zero fill, then the zero fill plus this point's
   contribution. -/
import proofs.«133496_j32933809226222_1_alg».proof.Proof.K.R1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator at the first point, last store first, with the proof that
    the body runs to a state holding them. -/
noncomputable def kernelRun1_A (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : cond1_0 i) (hc1 : ¬cond1_1 i)
    (x0 : Vec F S1x4096 .f32) (x1 : Vec F S4096x1 .f32) (x2 : Vec F S4096x1 .f32) (x3 : Vec F S4096x512 .f32) (x4 : Vec F S4096x512 .f32) :
    { LS : List (View.Piece (Elt F) S4096x1 .f32) //
      ∀ (xi5 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg1 harg1 arg2 harg2 arg3 harg3 arg4 harg4 arg5 harg5 arg6 harg6 arg7 harg7) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.R1

end
-- ==== Proof.K.R1RunB.lean ====
/- Region 1, the run of the body at a MIDDLE point (neither conditional taken): on whole staging memrefs holding the
   five input blocks, the output window's buffer at anything (handed back untouched: the window is idle here) and the
   accumulator at what the point before left, the body runs to a state with the inputs as they were and the
   accumulator written by one whole-buffer store: what it held plus this point's contribution. -/
import proofs.«133496_j32933809226222_1_alg».proof.Proof.K.R1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's store leaves in the accumulator at a middle point, with the proof that the body runs to a
    state holding them. -/
noncomputable def kernelRun1_B (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : ¬cond1_1 i)
    (x0 : Vec F S1x4096 .f32) (x1 : Vec F S4096x1 .f32) (x2 : Vec F S4096x1 .f32) (x3 : Vec F S4096x512 .f32) (x4 : Vec F S4096x512 .f32) (xs : Vec F S4096x1 .f32) :
    { LS : List (View.Piece (Elt F) S4096x1 .f32) //
      ∀ (xi5 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg1 harg1 arg2 harg2 arg3 harg3 arg4 harg4 arg5 harg5 arg6 harg6 arg7 harg7) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.R1

end
-- ==== Proof.K.R1RunC.lean ====
/- Region 1, the run of the body at the LAST point (the clearing conditional not taken, the closing one taken): on
   whole staging memrefs holding the five input blocks, the output window's buffer at anything and the accumulator at
   what the point before left, the body runs to a state with the inputs as they were, the accumulator written by two
   whole-buffer stores (this point's cache contribution added, then the new column's) and the output window's buffer
   written by one whole-buffer store: a copy of the accumulator. -/
import proofs.«133496_j32933809226222_1_alg».proof.Proof.K.R1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output window's buffer (first component) and in the accumulator (second)
    at the last point, last store first, with the proof that the body runs to a state holding them. -/
noncomputable def kernelRun1_C (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : cond1_1 i)
    (x0 : Vec F S1x4096 .f32) (x1 : Vec F S4096x1 .f32) (x2 : Vec F S4096x1 .f32) (x3 : Vec F S4096x512 .f32) (x4 : Vec F S4096x512 .f32) (xs : Vec F S4096x1 .f32) :
    Σ' (L5 : List (View.Piece (Elt F) S4096x1 .f32)), { LS : List (View.Piece (Elt F) S4096x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg1 harg1 arg2 harg2 arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.R1

end
-- ==== Proof.K.R1Body.lean ====
/- Region 1 (the attention call) — the proof data and the body obligation.
   What the three whole-body runs leave in the accumulator (and, at the last point, in the output window) reads back
   as the body's own arithmetic over the blocks (`k1_pay1`, `k1_pay2`, `k1_pay3`); `acc1` is the accumulator after
   each point, a recursion over that arithmetic; the proof data `dat1` puts every input window's buffer at its block,
   the output window's at the accumulator's contents, and tracks the accumulator in the region invariant; the body
   obligation follows by cases on the point (first / middle / last). Everything is stated at a parameter `V`, the buffer
   contents on entry to the region. -/
import proofs.«133496_j32933809226222_1_alg».proof.Proof.K.R1RunA
import proofs.«133496_j32933809226222_1_alg».proof.Proof.K.R1RunB
import proofs.«133496_j32933809226222_1_alg».proof.Proof.K.R1RunC
import Idealize.ShloMosaic.Lib.Pipeline.Value

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The runs' pieces, read back as the body's arithmetic -/

/-- Both offsets of a whole-buffer access are zero. -/
theorem hz : (![0, 0] : Fin 2 → Nat) = fun _ => 0 := funext fun a => by fin_cases a <;> rfl

/-- FIRST POINT. Whatever the accumulator held, after the body it reads back as this point's contribution added to
    the zero fill: the second of its two whole-buffer stores is the last, and the value that store adds to is the read
    of the first store, the zero fill. -/
theorem accA_eq (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : cond1_0 i) (hc1 : ¬cond1_1 i)
    (x0 : Vec F S1x4096 .f32) (x1 : Vec F S4096x1 .f32) (x2 : Vec F S4096x1 .f32) (x3 : Vec F S4096x512 .f32) (x4 : Vec F S4096x512 .f32) (v : View sig .tc .vmem S4096x1 .f32) (f : v.ty.Contents (Elt F)) :
    v.read (Elt F) (v.writes (Elt F) f (kernelRun1_A c i arg1 harg1 arg2 harg2 arg3 harg3 arg4 harg4 arg5 harg5 arg6 harg6 arg7 harg7 hc0 hc1 x0 x1 x2 x3 x4).1)
      = k1_pay2 x0 x3 x4 (k1_pay1 (F := F)) := by
  rw [View.read_writes_eq_canon _ _ _ (fun y => View.cover_of_tiledL (kernelRun1_A c i arg1 harg1 arg2 harg2 arg3 harg3 arg4 harg4 arg5 harg5 arg6 harg6 arg7 harg7 hc0 hc1 x0 x1 x2 x3 x4).1 S4096x1.size (by sl_kernel_rfl) y)]
  unfold kernelRun1_A
  dsimp only
  sl_unfold_run_names
  rw [View.canon_cons_unit_zero (S := S4096x1) hz, View.readCov_unit_zero (S := S4096x1) _ hz]
  simp only [View.readAt_eq_ld, harg1.read_unread, harg4.read_unread, harg5.read_unread,
    View.ld_unit_zero (S := S1x4096) hz, View.ld_unit_zero (S := S4096x512) hz]

/-- MIDDLE POINT. With the accumulator at `xs`, after the body it reads back as `xs` plus this point's contribution:
    one whole-buffer store, whose loads read the whole input buffers and the accumulator. -/
theorem accB_eq (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : ¬cond1_1 i)
    (x0 : Vec F S1x4096 .f32) (x1 : Vec F S4096x1 .f32) (x2 : Vec F S4096x1 .f32) (x3 : Vec F S4096x512 .f32) (x4 : Vec F S4096x512 .f32) (xs : Vec F S4096x1 .f32) (v : View sig .tc .vmem S4096x1 .f32) (f : v.ty.Contents (Elt F)) :
    v.read (Elt F) (v.writes (Elt F) f (kernelRun1_B c i arg1 harg1 arg2 harg2 arg3 harg3 arg4 harg4 arg5 harg5 arg6 harg6 arg7 harg7 hc0 hc1 x0 x1 x2 x3 x4 xs).1)
      = k1_pay2 x0 x3 x4 xs := by
  rw [View.read_writes_eq_canon _ _ _ (fun y => View.cover_of_tiledL (kernelRun1_B c i arg1 harg1 arg2 harg2 arg3 harg3 arg4 harg4 arg5 harg5 arg6 harg6 arg7 harg7 hc0 hc1 x0 x1 x2 x3 x4 xs).1 S4096x1.size (by sl_kernel_rfl) y)]
  unfold kernelRun1_B
  dsimp only
  rw [View.canon_unit_zero (S := S4096x1) hz]
  simp only [View.readAt_eq_ld, harg1.read_unread, harg4.read_unread, harg5.read_unread, harg7.read_unread,
    View.ld_unit_zero (S := S1x4096) hz, View.ld_unit_zero (S := S4096x512) hz, View.ld_unit_zero (S := S4096x1) hz]

/-- LAST POINT, the accumulator. With the accumulator at `xs`, after the body it reads back as `xs` plus this point's
    cache contribution plus the new column's: the second whole-buffer store is the last, and the value it adds to is
    the read of the first. -/
theorem accC_eq (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : cond1_1 i)
    (x0 : Vec F S1x4096 .f32) (x1 : Vec F S4096x1 .f32) (x2 : Vec F S4096x1 .f32) (x3 : Vec F S4096x512 .f32) (x4 : Vec F S4096x512 .f32) (xs : Vec F S4096x1 .f32) (v : View sig .tc .vmem S4096x1 .f32) (f : v.ty.Contents (Elt F)) :
    v.read (Elt F) (v.writes (Elt F) f (kernelRun1_C c i arg1 harg1 arg2 harg2 arg3 harg3 arg4 harg4 arg5 harg5 arg6 harg6 arg7 harg7 hc0 hc1 x0 x1 x2 x3 x4 xs).2.1)
      = k1_pay3 x0 x1 (k1_pay2 x0 x3 x4 xs) x2 := by
  rw [View.read_writes_eq_canon _ _ _ (fun y => View.cover_of_tiledL (kernelRun1_C c i arg1 harg1 arg2 harg2 arg3 harg3 arg4 harg4 arg5 harg5 arg6 harg6 arg7 harg7 hc0 hc1 x0 x1 x2 x3 x4 xs).2.1 S4096x1.size (by sl_kernel_rfl) y)]
  unfold kernelRun1_C
  dsimp only
  sl_unfold_run_names
  rw [View.canon_cons_unit_zero (S := S4096x1) hz, View.readCov_unit_zero (S := S4096x1) _ hz]
  simp only [View.readAt_eq_ld, harg1.read_unread, harg2.read_unread, harg3.read_unread, harg4.read_unread, harg5.read_unread, harg7.read_unread,
    View.ld_unit_zero (S := S1x4096) hz, View.ld_unit_zero (S := S4096x512) hz, View.ld_unit_zero (S := S4096x1) hz]

/-- LAST POINT, the output window. Its buffer is written by one whole-buffer store of what the accumulator then
    reads (after both of that point's stores into it): the same value. -/
theorem outC_eq (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : cond1_1 i)
    (x0 : Vec F S1x4096 .f32) (x1 : Vec F S4096x1 .f32) (x2 : Vec F S4096x1 .f32) (x3 : Vec F S4096x512 .f32) (x4 : Vec F S4096x512 .f32) (xs : Vec F S4096x1 .f32) (v : View sig .tc .vmem S4096x1 .f32) (f : v.ty.Contents (Elt F)) :
    v.read (Elt F) (v.writes (Elt F) f (kernelRun1_C c i arg1 harg1 arg2 harg2 arg3 harg3 arg4 harg4 arg5 harg5 arg6 harg6 arg7 harg7 hc0 hc1 x0 x1 x2 x3 x4 xs).1)
      = k1_pay3 x0 x1 (k1_pay2 x0 x3 x4 xs) x2 := by
  rw [View.read_writes_eq_canon _ _ _ (fun y => View.cover_of_tiledL (kernelRun1_C c i arg1 harg1 arg2 harg2 arg3 harg3 arg4 harg4 arg5 harg5 arg6 harg6 arg7 harg7 hc0 hc1 x0 x1 x2 x3 x4 xs).1 S4096x1.size (by sl_kernel_rfl) y)]
  unfold kernelRun1_C
  dsimp only
  sl_unfold_run_names
  rw [View.canon_unit_zero (S := S4096x1) hz,
    View.readCov_eq_canon_ld _ _ _ (fun y => ⟨_, List.Mem.head _, View.mem_set_unit_zero hz inb_S4096x1_S4096x1_0_0 y⟩),
    View.canon_cons_unit_zero (S := S4096x1) hz, View.ld_unit_zero (S := S4096x1) hz,
    View.readCov_unit_zero (S := S4096x1) _ hz]
  simp only [View.readAt_eq_ld, harg1.read_unread, harg2.read_unread, harg3.read_unread, harg4.read_unread, harg5.read_unread, harg7.read_unread,
    View.ld_unit_zero (S := S1x4096) hz, View.ld_unit_zero (S := S4096x512) hz, View.ld_unit_zero (S := S4096x1) hz]

section Entry
-- the buffer contents on entry to the region: everything below is stated at this parameter
variable (V : (c : Dev nD) → (b : Ref sig .tc) → Buf (Elt F) ((c : Thread nD τ).loc b))

/-! ## What the accumulator holds after each point -/

/-- The `n`-th point of the grid (`n` taken modulo the 16 points, so that the recursion below needs no bound). -/
def pt1 (n : ℕ) : Fin cfg1.N := ⟨n % 16, lt_of_lt_of_eq (Nat.mod_lt n (by decide)) N_1.symm⟩

theorem pt1_val (t : Fin cfg1.N) : pt1 t.val = t :=
  Fin.ext (Nat.mod_eq_of_lt (lt_of_lt_of_eq t.isLt N_1))

/-- THE ACCUMULATION, over the body's own arithmetic. `acc1 n` is what the accumulator holds after the first `n`
    points: before any point the zero fill (what the first point's clearing store writes, whatever was there); each of
    the points 0..14 adds its cache block's contribution (the first over the zero fill) — `k1_pay2` of the query, that
    point's block of the key cache, that point's block of the value cache, and what was there; the last point, 15,
    adds its cache block's contribution and then the new column's — `k1_pay3` of the query, the new key, that sum,
    the new value. -/
def acc1 (c : Dev nD) : (n : ℕ) → Vec F S4096x1 .f32
  | 0 => k1_pay1 (F := F)
  | n + 1 =>
    if n = 15 then
      k1_pay3 (iblk1 V c 0 (pt1 n)) (iblk1 V c 1 (pt1 n))
        (k1_pay2 (iblk1 V c 0 (pt1 n)) (iblk1 V c 3 (pt1 n)) (iblk1 V c 4 (pt1 n)) (acc1 c n)) (iblk1 V c 2 (pt1 n))
    else
      k1_pay2 (iblk1 V c 0 (pt1 n)) (iblk1 V c 3 (pt1 n)) (iblk1 V c 4 (pt1 n)) (acc1 c n)

theorem acc1_zero (c : Dev nD) : acc1 V c 0 = k1_pay1 (F := F) := rfl

/-- After a point that is not the last: what was there plus that point's contribution. -/
theorem acc1_succ (c : Dev nD) (t : Fin cfg1.N) (h : t.val ≠ 15) :
    acc1 V c (t.val + 1) = k1_pay2 (iblk1 V c 0 t) (iblk1 V c 3 t) (iblk1 V c 4 t) (acc1 V c t.val) := by
  rw [acc1, if_neg h, pt1_val]

/-- After the last point: that plus the new column's contribution. -/
theorem acc1_last (c : Dev nD) (t : Fin cfg1.N) (h : t.val = 15) :
    acc1 V c (t.val + 1) = k1_pay3 (iblk1 V c 0 t) (iblk1 V c 1 t)
      (k1_pay2 (iblk1 V c 0 t) (iblk1 V c 3 t) (iblk1 V c 4 t) (acc1 V c t.val)) (iblk1 V c 2 t) := by
  rw [acc1, if_pos h, pt1_val]

/-! ## The region invariant, point by point -/

/-- Before the first point the class's invariant (the accumulator at anything); before point `n + 1` the same with
    the accumulator at what the first `n + 1` points left. -/
def Phi1 (c : Dev nD) : ℕ → sProp 𝕄
  | 0 => Pipeline.ΦA spec1 c
  | n + 1 => inv1 c (owns (c : Thread nD τ) scM1 fullShare (acc1 V c (n + 1)))

theorem Phi1_zero (c : Dev nD) (n : ℕ) (hz : n = 0) : Phi1 V c n = Pipeline.ΦA spec1 c := by
  subst hz; rfl

theorem Phi1_succ (c : Dev nD) (n : ℕ) :
    Phi1 V c (n + 1) = inv1 c (owns (c : Thread nD τ) scM1 fullShare (acc1 V c (n + 1))) := rfl

theorem Phi1_pos (c : Dev nD) (n : ℕ) (hz : n ≠ 0) :
    Phi1 V c n = inv1 c (owns (c : Thread nD τ) scM1 fullShare (acc1 V c n)) := by
  cases n with
  | zero => exact absurd rfl hz
  | succ n => rfl

/-! ## The proof data -/

/-- The proof data of the region on core `c`: the arrays as the region finds them; after the body at point `t` each
    input's buffer at its block (the body stores into no input) and the output's at what the accumulator then holds
    (consulted at the last point only: elsewhere the window is idle and not written back); the invariant `Phi1`;
    full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c (t.val + 1)
  Φ t := Phi1 V c t.val
  q _ := fullShare
  owed _ := 0

/-- The proof data's arrays are the entry contents (the definition projected; the contents are never unfolded). -/
theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1 V c (t.val + 1) := by dsimp only [dat1]

/-- The output window's buffer after the body at the last point: the accumulator's final contents. -/
theorem after1_5_last (c : Dev nD) : (dat1 V c).after 5 ⟨15, by decide⟩ = acc1 V c 16 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`: the invariant, the core's dues, and each window's current staging buffer
    at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- An input window is never idle: the body leaves its buffer at the block. -/
theorem leaves_in (c : Dev nD) (t : Fin cfg1.N) :
    (dat1 V c).leavesExact 0 t = owns (c : Thread nD τ) (st1_0 t) fullShare (iblk1 V c 0 t)
    ∧ (dat1 V c).leavesExact 1 t = owns (c : Thread nD τ) (st1_1 t) fullShare (iblk1 V c 1 t)
    ∧ (dat1 V c).leavesExact 2 t = owns (c : Thread nD τ) (st1_2 t) fullShare (iblk1 V c 2 t)
    ∧ (dat1 V c).leavesExact 3 t = owns (c : Thread nD τ) (st1_3 t) fullShare (iblk1 V c 3 t)
    ∧ (dat1 V c).leavesExact 4 t = owns (c : Thread nD τ) (st1_4 t) fullShare (iblk1 V c 4 t) := by
  refine ⟨?_, ?_, ?_, ?_, ?_⟩
  · unfold Dat.leavesExact; rw [show cfg1.idle 0 (cfg1.grid.coords t) = false from rfl, after1_0]
  · unfold Dat.leavesExact; rw [show cfg1.idle 1 (cfg1.grid.coords t) = false from rfl, after1_1]
  · unfold Dat.leavesExact; rw [show cfg1.idle 2 (cfg1.grid.coords t) = false from rfl, after1_2]
  · unfold Dat.leavesExact; rw [show cfg1.idle 3 (cfg1.grid.coords t) = false from rfl, after1_3]
  · unfold Dat.leavesExact; rw [show cfg1.idle 4 (cfg1.grid.coords t) = false from rfl, after1_4]

set_option maxHeartbeats 4800000 in
/-- The body at any point. The inputs' memrefs hold their blocks; the closed forms of the two conditions say which of
    the three runs applies (first point / a middle point / last point); the invariant hands the run the accumulator —
    at anything at the first point, at what the points before left otherwise — and takes it back at this point's
    contents (the run's pieces read back as the body's arithmetic); the first call's staging buffers, the generator
    register and the core's dues pass through untouched; away from the last point the output window's buffer is handed
    back as found, at the last point it holds a copy of the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) from rfl, Phi1_succ]
  rw [(leaves_in V c t).1, (leaves_in V c t).2.1, (leaves_in V c t).2.2.1, (leaves_in V c t).2.2.2.1, (leaves_in V c t).2.2.2.2]
  have hN : t.val < 16 := lt_of_lt_of_eq t.isLt N_1
  by_cases h1 : t.val = 15
  · -- the last point
    have h0 : ¬t.val = 0 := by omega
    rw [show (dat1 V c).leavesExact 5 t = owns (c : Thread nD τ) (st1_5 t) fullShare ((dat1 V c).after 5 t) from by
      unfold Dat.leavesExact; rw [liveAt1_5 t ((hcond1_1 t).mpr h1)], after1_5]
    rw [acc1_last V c t h1, Phi1_castSucc V c t, Phi1_pos V c _ h0]
    unfold inv1
    iintro ⟨⟨⟨R1, R2, R3, R4, R5, R6, R7, R8, R9, R10, R11, R12, R13, R14, HS0⟩, Hg⟩, Ho, ⟨%d0, H0⟩, ⟨%d1, H1⟩, ⟨%d2, H2⟩, ⟨%d3, H3⟩, ⟨%d4, H4⟩, ⟨%d5, H5⟩⟩
    iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (acc1 V c t.val)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [R1 R2 R3 R4 R5 R6 R7 R8 R9 R10 R11 R12 R13 R14 HS0 Hg]
    · isplitr [Hg]
      swap; · iexact Hg
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      unfold owns; iexists _; isplitr
      swap; · iexact HS0
      ipureintro; exact accC_eq (F := F) c (grid1.coords t) _ _ _ _ _ _ _ _ _ _ _ _ _ _ _ _ (iblk1 V c 0 t) (iblk1 V c 1 t) (iblk1 V c 2 t) (iblk1 V c 3 t) (iblk1 V c 4 t) (acc1 V c t.val) _ _
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact outC_eq (F := F) c (grid1.coords t) _ _ _ _ _ _ _ _ _ _ _ _ _ _ _ _ (iblk1 V c 0 t) (iblk1 V c 1 t) (iblk1 V c 2 t) (iblk1 V c 3 t) (iblk1 V c 4 t) (acc1 V c t.val) _ _
  · rw [Dat.leavesExact_idle (dat1 V c) 5 t (idleAt1_5 t (fun h => h1 ((hcond1_1 t).mp h))) (noFlush1_5 t (fun h => h1 ((hcond1_1 t).mp h)))]
    rw [acc1_succ V c t h1, Phi1_castSucc V c t]
    by_cases h0 : t.val = 0
    · -- the first point: the accumulator arrives at anything, and the zero fill is what this point adds to
      rw [Phi1_zero V c _ h0, PhiA1_eq, show acc1 V c t.val = k1_pay1 (F := F) from by rw [h0]; rfl]
      unfold inv1
      iintro ⟨⟨⟨R1, R2, R3, R4, R5, R6, R7, R8, R9, R10, R11, R12, R13, R14, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R1 R2 R3 R4 R5 R6 R7 R8 R9 R10 R11 R12 R13 R14 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        unfold owns; iexists _; isplitr
        swap; · iexact HS0
        ipureintro; exact accA_eq (F := F) c (grid1.coords t) _ _ _ _ _ _ _ _ _ _ _ _ _ _ _ _ (iblk1 V c 0 t) (iblk1 V c 1 t) (iblk1 V c 2 t) (iblk1 V c 3 t) (iblk1 V c 4 t) _ _
      isplitl [Ho]; · iexact Ho
      isplitl [H0]; · iexact H0
      isplitl [H1]; · iexact H1
      isplitl [H2]; · iexact H2
      isplitl [H3]; · iexact H3
      isplitl [H4]; · iexact H4
      iexists _; iexact H5
    · -- a middle point
      rw [Phi1_pos V c _ h0]
      unfold inv1
      iintro ⟨⟨⟨R1, R2, R3, R4, R5, R6, R7, R8, R9, R10, R11, R12, R13, R14, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (acc1 V c t.val)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R1 R2 R3 R4 R5 R6 R7 R8 R9 R10 R11 R12 R13 R14 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        unfold owns; iexists _; isplitr
        swap; · iexact HS0
        ipureintro; exact accB_eq (F := F) c (grid1.coords t) _ _ _ _ _ _ _ _ _ _ _ _ _ _ _ _ (iblk1 V c 0 t) (iblk1 V c 1 t) (iblk1 V c 2 t) (iblk1 V c 3 t) (iblk1 V c 4 t) (acc1 V c t.val) _ _
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 from rfl, Phi1_zero V c 0 rfl]
  try exact Idealize.SL.BI.Entails.refl _

/-- After the last point the invariant gives the class's back: what the accumulator holds is forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val from rfl,
    Phi1_pos V c _ (by rw [Fin.val_last]; have : cfg1.N = 16 := N_1; omega), PhiA1_eq]
  unfold inv1
  iintro ⟨⟨R1, R2, R3, R4, R5, R6, R7, R8, R9, R10, R11, R12, R13, R14, HS0⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexists _; iexact HS0

end Entry

end Cert.Kernel.R1

end
-- ==== Proof.K.Run.lean ====
/-
  The run of the whole program: the host transpose of the embedding, then the region that forms the query, the new
  key and the new value, then the region that attends over the caches, composed in order from the launch to the
  return. What each buffer holds between the items is a fold from the launch memory; the arguments are read back
  through it unchanged, and the result buffer ends at what the second region's last write-back leaves.
-/
import proofs.«133496_j32933809226222_1_alg».proof.Proof.K.R0Body
import proofs.«133496_j32933809226222_1_alg».proof.Proof.K.R1Body
import proofs.«133496_j32933809226222_1_alg».proof.Proof.Gen.Kernel.Launch
import proofs.«133496_j32933809226222_1_alg».proof.Proof.Gen.Kernel.Skeleton
import proofs.«133496_j32933809226222_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.R0 Cert.Kernel.R1

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the TensorCore's buffers hold between the items of @main

@main is: transpose the embedding (a host operation), compute the three projections (region 0), attend over the caches
(region 1). The contents at each boundary are a fold from the launch memory. -/

/-- At launch. -/
abbrev W0 : Dev nD → Valuation τ sig (Elt F) := fun c b => (s₀ m ρ).mem ((c : Dev nD), b)
/-- After the transpose: region 0's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The transpose writes only its own result. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))
/-- After region 0: its arrays at what its write-backs leave (an input as entered, the query, the new key and the new
    value block by block), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After region 1: its arrays at what its write-backs leave (the result written at the last point), every other
    buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- Argument 0 is read by region 0 through an input window and bypasses region 1; the host transpose does not write it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl

/-- Argument 1 is read by region 0 through an input window and bypasses region 1; the host transpose does not write it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := W1_of_ne m ρ c main_arg1 (by decide)
    _ = m ((c : Thread nD τ).loc main_arg1) := rfl

/-- Argument 2 is read by region 0 through an input window and bypasses region 1; the host transpose does not write it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := W1_of_ne m ρ c main_arg2 (by decide)
    _ = m ((c : Thread nD τ).loc main_arg2) := rfl

/-- Argument 3 is read by region 0 through an input window and bypasses region 1; the host transpose does not write it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := W1_of_ne m ρ c main_arg3 (by decide)
    _ = m ((c : Thread nD τ).loc main_arg3) := rfl

/-- Argument 4 bypasses region 0 and is read by region 1 through an input window; the host transpose does not write it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 3).trans (((dat1 (V2 m ρ) c).arrAt_in 3 rfl _).trans (A_eq1 (V2 m ρ) c 3))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- Argument 5 bypasses region 0 and is read by region 1 through an input window; the host transpose does not write it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 4).trans (((dat1 (V2 m ρ) c).arrAt_in 4 rfl _).trans (A_eq1 (V2 m ρ) c 4))
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## The proof data of both pipelines and the state a core carries between items -/

/-- No pipeline prefetches a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register at some state and owes nothing. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The transpose as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (W3 m ρ c) ∗ ∃ r, prngReg c r)

/-! ## The two regions as segments -/

set_option backward.isDefEq.respectTransparency.types false in
/-- Region 0 as a segment of @main: entered with every unscoped buffer at `W1`, left with them at `W2`. Its
    arrays are split out of the unscoped buffers at entry and put back at the contents the write-backs leave at exit;
    the generator register goes into the region's invariant and comes out; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W2`, left with them at `W3`. Its
    arrays are split out of the unscoped buffers at entry and put back at the contents the write-backs leave at exit;
    the generator register goes into the region's invariant and comes out; nothing is owed; the kernel has no
    semaphore of its own. The invariant is the kernel's own (the accumulator kept in scratch): entered from the plain
    one before the first point and returned to it after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the run -/

abbrev segs : List (Pipeline.Seg (pcfgs (F := F)) adm (pdats m ρ) () defs₀ 𝒱₀ L lv) :=
  [ .host (hseg0 m ρ), .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds, in each unscoped buffer, the fold's last contents `W3`: the arguments as launched
    (`W3_main_argK`) and the result at what region 1's write-back leaves (`W3_arr`). -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame claim's post at any `F`: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run m ρ)

end Cert.Kernel.Run

end
-- ==== Proof.KI.R0Body.lean ====
/-
  The body half of the projection region (the first of the two kernel launches): what one call of the kernel body does
  to the staging buffers it is handed — three matrix products, each stored whole into one output buffer — and the
  region's proof data built from it. Generic in the arithmetic `F`.
-/
import proofs.«133496_j32933809226222_1_alg».proof.Proof.Gen.KernelIdeal.Launch
import proofs.«133496_j32933809226222_1_alg».proof.Proof.Gen.KernelIdeal.Skeleton
import proofs.«133496_j32933809226222_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the projection region is entered: everything below is stated at this parameter
variable (V : (c : Dev nD) → (b : Ref sig .tc) → Buf (Elt F) ((c : Thread nD τ).loc b))

/-! # The projection region: q, k and v, sixteen blocks of 256 entries each

At grid point `t` the body is handed the whole embedding twice (as a row and as a column, the same block at every
point) and rows `256 t … 256 t + 255` of each of the three projection matrices; it writes entries
`256 t … 256 t + 255` of the query (a row), of the new key and of the new value (columns). -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding as a row: one block, the same at every point, fetched once. For any proof data whose array is the entry contents and whose body leaves the
    block where it was, the buffer the body is handed holds the block of the point: if it was not fetched at this
    point, the block index has not moved since the point where it was. -/
theorem before_in0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The embedding as a column: one block, the same at every point, fetched once. For any proof data whose array is the entry contents and whose body leaves the
    block where it was, the buffer the body is handed holds the block of the point: if it was not fetched at this
    point, the block index has not moved since the point where it was. -/
theorem before_in1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The query matrix: 256 rows per point, fetched at every point. For any proof data whose array is the entry contents and whose body leaves the
    block where it was, the buffer the body is handed holds the block of the point: if it was not fetched at this
    point, the block index has not moved since the point where it was. -/
theorem before_in2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The key matrix: 256 rows per point, fetched at every point. For any proof data whose array is the entry contents and whose body leaves the
    block where it was, the buffer the body is handed holds the block of the point: if it was not fetched at this
    point, the block index has not moved since the point where it was. -/
theorem before_in3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The value matrix: 256 rows per point, fetched at every point. For any proof data whose array is the entry contents and whose body leaves the
    block where it was, the buffer the body is handed holds the block of the point: if it was not fetched at this
    point, the block index has not moved since the point where it was. -/
theorem before_in4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

/-- The whole row of 4096 entries. -/
abbrev rRow : Rect S1x4096 := Rect.unit (s := S1x4096) ![0, 0] S1x4096.size inb_S1x4096_S1x4096_0_0
/-- The whole column of 4096 entries. -/
abbrev rCol : Rect S4096x1 := Rect.unit (s := S4096x1) ![0, 0] S4096x1.size inb_S4096x1_S4096x1_0_0
/-- The whole block of 256 matrix rows. -/
abbrev rMat : Rect S256x4096 := Rect.unit (s := S256x4096) ![0, 0] S256x4096.size inb_S256x4096_S256x4096_0_0
/-- The whole block of 256 query entries. -/
abbrev rQ : Rect S1x256 := Rect.unit (s := S1x256) ![0, 0] S1x256.size inb_S1x256_S1x256_0_0
/-- The whole block of 256 key (or value) entries. -/
abbrev rKV : Rect S256x1 := Rect.unit (s := S256x1) ![0, 0] S256x1.size inb_S256x1_S256x1_0_0

/-! ## What the body leaves in each output buffer -/

/-- The query block: the one store, of the embedding row contracted with the 256 matrix rows along the 4096 axis. -/
def out0_5 (x : Vec F S1x4096 .f32) (Wq : Vec F S256x4096 .f32) : Vec F S1x256 .f32 :=
  View.canon [⟨rQ, k0_pay1 (View.ld x rRow) (View.ld Wq rMat)⟩]

/-- The key block: the one store, of the 256 matrix rows applied to the embedding column. -/
def out0_6 (Wk : Vec F S256x4096 .f32) (xc : Vec F S4096x1 .f32) : Vec F S256x1 .f32 :=
  View.canon [⟨rKV, k0_pay2 (View.ld Wk rMat) (View.ld xc rCol)⟩]

/-- The value block: the same product with the value matrix's rows. -/
def out0_7 (Wv : Vec F S256x4096 .f32) (xc : Vec F S4096x1 .f32) : Vec F S256x1 .f32 :=
  View.canon [⟨rKV, k0_pay3 (View.ld Wv rMat) (View.ld xc rCol)⟩]

/-- A store of the whole query block covers it. -/
theorem coverQ (p : Vec F S1x256 .f32) (y : S1x256.Idx) :
    ∃ pc ∈ ([⟨rQ, p⟩] : List (View.Piece (Elt F) S1x256 .f32)), y ∈ pc.1.set :=
  View.cover_of_tiled [⟨rQ, p⟩] S1x256.size (by rfl) y

/-- A store of the whole key (or value) block covers it. -/
theorem coverKV (p : Vec F S256x1 .f32) (y : S256x1.Idx) :
    ∃ pc ∈ ([⟨rKV, p⟩] : List (View.Piece (Elt F) S256x1 .f32)), y ∈ pc.1.set :=
  View.cover_of_tiled [⟨rKV, p⟩] S256x1.size (by rfl) y

/-! ## The body's triple -/

set_option maxHeartbeats 1000000 in
/-- The body on whole staging buffers: with the five inputs' buffers reading `x`, `xc`, `Wq`, `Wk`, `Wv` and the three
    outputs' holding anything, it runs to the continuation with the inputs as they were and the outputs at the three
    products. Its loads of the output buffers before each store are of values it never uses. -/
theorem sound_kernel0 (c : Dev nD) (E : Set ℕ) (i : grid0.Coords)
    (arg1 : Memref sig .tc .vmem S1x4096 .f32) (harg1 : arg1.IsWhole) (arg2 : Memref sig .tc .vmem S4096x1 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S256x4096 .f32) (harg5 : arg5.IsWhole) (arg6 : Memref sig .tc .vmem S1x256 .f32) (harg6 : arg6.IsWhole)
    (arg7 : Memref sig .tc .vmem S256x1 .f32) (harg7 : arg7.IsWhole) (arg8 : Memref sig .tc .vmem S256x1 .f32) (harg8 : arg8.IsWhole)
    (x : Vec F S1x4096 .f32) (xc : Vec F S4096x1 .f32) (Wq : Vec F S256x4096 .f32) (Wk : Vec F S256x4096 .f32) (Wv : Vec F S256x4096 .f32)
    (K : PUnit → sProp 𝕄) :
    iprop(owns (c : Thread nD τ) arg1 fullShare x ∗ owns (c : Thread nD τ) arg2 fullShare xc ∗ owns (c : Thread nD τ) arg3 fullShare Wq
        ∗ owns (c : Thread nD τ) arg4 fullShare Wk ∗ owns (c : Thread nD τ) arg5 fullShare Wv
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare xc ∗ owns (c : Thread nD τ) arg3 fullShare Wq
            ∗ owns (c : Thread nD τ) arg4 fullShare Wk ∗ owns (c : Thread nD τ) arg5 fullShare Wv
            ∗ owns (c : Thread nD τ) arg6 fullShare (out0_5 x Wq) ∗ owns (c : Thread nD τ) arg7 fullShare (out0_6 Wk xc)
            ∗ owns (c : Thread nD τ) arg8 fullShare (out0_7 Wv xc)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverQ _)
  isplitl [H6]
  · iexists _; isplitr
    swap; · iexact H6
    ipureintro
    exact View.read_writes_eq_canon _ _ _ (coverKV _)
  iexists _; isplitr
  swap; · iexact H7
  ipureintro
  exact View.read_writes_eq_canon _ _ _ (coverKV _)

/-! ## The region's proof data -/

/-- The proof data of the projection region on core `c`: the arrays as the region finds them; after the body at point
    `t` each input's buffer still at its block and the three outputs' at the products of the point's blocks; the
    invariant is the untouched rest of the core's memory; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 2 t)
    | ⟨6, _⟩ => out0_6 (iblk0 V c 3 t) (iblk0 V c 1 t)
    | ⟨7, _⟩ => out0_7 (iblk0 V c 4 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 3 t) (iblk0 V c 1 t) := by dsimp only [dat0]
theorem after0_7 (c : Dev nD) (t : Fin cfg0.N) : (dat0 V c).after 7 t = out0_7 (iblk0 V c 4 t) (iblk0 V c 1 t) := by dsimp only [dat0]

/-- Each input's current staging buffer holds its block at every point. -/
theorem before0_0 (c : Dev nD) (t : Fin cfg0.N) (d) : (dat0 V c).before 0 t d = iblk0 V c 0 t :=
  before_in0_of V (dat0 V c) (A_eq0 V c 0) (after0_0 V c) t d
theorem before0_1 (c : Dev nD) (t : Fin cfg0.N) (d) : (dat0 V c).before 1 t d = iblk0 V c 1 t :=
  before_in1_of V (dat0 V c) (A_eq0 V c 1) (after0_1 V c) t d
theorem before0_2 (c : Dev nD) (t : Fin cfg0.N) (d) : (dat0 V c).before 2 t d = iblk0 V c 2 t :=
  before_in2_of V (dat0 V c) (A_eq0 V c 2) (after0_2 V c) t d
theorem before0_3 (c : Dev nD) (t : Fin cfg0.N) (d) : (dat0 V c).before 3 t d = iblk0 V c 3 t :=
  before_in3_of V (dat0 V c) (A_eq0 V c 3) (after0_3 V c) t d
theorem before0_4 (c : Dev nD) (t : Fin cfg0.N) (d) : (dat0 V c).before 4 t d = iblk0 V c 4 t :=
  before_in4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.R1Runs.lean ====
/- Region 1 (the attention call) — what its three whole-body runs and the body obligation share.
   The region's grid has 16 points. The body keeps a 4096x1 accumulator in a scratch buffer that lives across
   points: it clears it at point 0, adds one cache block's contribution at every point, and at point 15 also adds
   the new column's contribution and copies the accumulator to the output window. This file fixes: a window's
   block read off the array the region finds (at a PARAMETER V, the buffer contents on entry); the two branch
   conditions as propositions decided over the 16 points; where the output window is idle; the scratch as a memref;
   and the region invariant of the class split into "the other call's staging buffers", "the scratch" and "the
   generator register". -/
import proofs.«133496_j32933809226222_1_alg».proof.Proof.Gen.KernelIdeal.Launch
import proofs.«133496_j32933809226222_1_alg».proof.Proof.Gen.KernelIdeal.Skeleton
import proofs.«133496_j32933809226222_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
-- the buffer contents on entry to the region: everything below is stated at this parameter
variable (V : (c : Dev nD) → (b : Ref sig .tc) → Buf (Elt F) ((c : Thread nD τ).loc b))

/-- Window `w`'s block at point `t`: the entries of its array (as the region finds it) that the window's index map
    selects there. Windows 0, 1, 2 (q, k, v) have one block, the whole array; windows 3 and 4 (the two caches) have
    the 512 columns starting at 512·t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there or
    not (an unfetched window's block index has not moved since the last fetch), for any proof data over `V` whose body
    leaves the inputs in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two branch conditions -/

/-- "this is the first point": the condition of the conditional that clears the accumulator. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- "this is the last point": the condition of the conditional that adds the new column and writes the output. -/
abbrev cond1_1 (i : grid1.Coords) : Prop := k1_cond2 i = 1#1
/-- It holds at point 15 only. -/
theorem hcond1_1 : ∀ t : Fin cfg1.N, cond1_1 (grid1.coords t) ↔ t.val = 15 :=
  (by decide +kernel : ∀ t : Fin grid1.N, cond1_1 (grid1.coords t) ↔ t.val = 15)

/-! ## Where the output window is idle -/

/-- Away from the last point the body stores nothing into the output window, -/
theorem idleAt1_5 : ∀ t : Fin cfg1.N, ¬cond1_1 (grid1.coords t) → cfg1.idle 5 (grid1.coords t) = true := by decide +kernel
/-- and the pipeline does not write its block back there; -/
theorem noFlush1_5 : ∀ t : Fin cfg1.N, ¬cond1_1 (grid1.coords t) → (cfg1.win 5).flush t = false := by decide +kernel
/-- at the last point the window is live. -/
theorem liveAt1_5 : ∀ t : Fin cfg1.N, cond1_1 (grid1.coords t) → cfg1.idle 5 (grid1.coords t) = false := by decide +kernel

/-! ## The scratch accumulator and the region invariant -/

/-- The accumulator: a whole scoped buffer of the kernel's own, passed to the body beside the windows. -/
abbrev scM1 : Memref sig .tc .vmem S4096x1 .f32 := Memref.whole cc1_scratch0

/-- The region invariant with the accumulator holding `S`: the first call's fourteen staging buffers at some contents
    each (this region never touches them), the accumulator as `S` says, the generator register at some state. -/
def inv1 (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ S) ∗ (∃ r, prngReg c r))

/-- The class's invariant is `inv1` with the accumulator owned at some contents. -/
theorem PhiA1_eq (c : Dev nD) :
    (Pipeline.ΦA spec1 c : sProp 𝕄) = inv1 c iprop(∃ d, owns (c : Thread nD τ) scM1 fullShare d) := by
  unfold Pipeline.ΦA inv1; rw [scopedRest1_eq]; simp only [scM1, owns_whole]; try rfl

end Cert.KernelIdeal.R1

end
-- ==== Proof.KI.R1RunA.lean ====
/- Region 1, the run of the body at the FIRST point (the clearing conditional taken, the closing one not): on whole
   staging memrefs holding the five input blocks, the output window's buffer at anything (handed back untouched:
   the window is idle here) and the accumulator at anything, the body runs to a state with the inputs as they were
   and the accumulator written by two whole-buffer stores — the zero fill, then the zero fill plus this point's
   contribution. -/
import proofs.«133496_j32933809226222_1_alg».proof.Proof.KI.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator at the first point, last store first, with the proof that
    the body runs to a state holding them. -/
noncomputable def kernelRun1_A (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : cond1_0 i) (hc1 : ¬cond1_1 i)
    (x0 : Vec F S1x4096 .f32) (x1 : Vec F S4096x1 .f32) (x2 : Vec F S4096x1 .f32) (x3 : Vec F S4096x512 .f32) (x4 : Vec F S4096x512 .f32) :
    { LS : List (View.Piece (Elt F) S4096x1 .f32) //
      ∀ (xi5 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg1 harg1 arg2 harg2 arg3 harg3 arg4 harg4 arg5 harg5 arg6 harg6 arg7 harg7) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.R1

end
-- ==== Proof.KI.R1RunB.lean ====
/- Region 1, the run of the body at a MIDDLE point (neither conditional taken): on whole staging memrefs holding the
   five input blocks, the output window's buffer at anything (handed back untouched: the window is idle here) and the
   accumulator at what the point before left, the body runs to a state with the inputs as they were and the
   accumulator written by one whole-buffer store: what it held plus this point's contribution. -/
import proofs.«133496_j32933809226222_1_alg».proof.Proof.KI.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's store leaves in the accumulator at a middle point, with the proof that the body runs to a
    state holding them. -/
noncomputable def kernelRun1_B (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : ¬cond1_1 i)
    (x0 : Vec F S1x4096 .f32) (x1 : Vec F S4096x1 .f32) (x2 : Vec F S4096x1 .f32) (x3 : Vec F S4096x512 .f32) (x4 : Vec F S4096x512 .f32) (xs : Vec F S4096x1 .f32) :
    { LS : List (View.Piece (Elt F) S4096x1 .f32) //
      ∀ (xi5 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg1 harg1 arg2 harg2 arg3 harg3 arg4 harg4 arg5 harg5 arg6 harg6 arg7 harg7) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.R1

end
-- ==== Proof.KI.R1RunC.lean ====
/- Region 1, the run of the body at the LAST point (the clearing conditional not taken, the closing one taken): on
   whole staging memrefs holding the five input blocks, the output window's buffer at anything and the accumulator at
   what the point before left, the body runs to a state with the inputs as they were, the accumulator written by two
   whole-buffer stores (this point's cache contribution added, then the new column's) and the output window's buffer
   written by one whole-buffer store: a copy of the accumulator. -/
import proofs.«133496_j32933809226222_1_alg».proof.Proof.KI.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output window's buffer (first component) and in the accumulator (second)
    at the last point, last store first, with the proof that the body runs to a state holding them. -/
noncomputable def kernelRun1_C (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : cond1_1 i)
    (x0 : Vec F S1x4096 .f32) (x1 : Vec F S4096x1 .f32) (x2 : Vec F S4096x1 .f32) (x3 : Vec F S4096x512 .f32) (x4 : Vec F S4096x512 .f32) (xs : Vec F S4096x1 .f32) :
    Σ' (L5 : List (View.Piece (Elt F) S4096x1 .f32)), { LS : List (View.Piece (Elt F) S4096x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg1 harg1 arg2 harg2 arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.R1

end
-- ==== Proof.KI.R1Body.lean ====
/- Region 1 (the attention call) — the proof data and the body obligation.
   What the three whole-body runs leave in the accumulator (and, at the last point, in the output window) reads back
   as the body's own arithmetic over the blocks (`k1_pay1`, `k1_pay2`, `k1_pay3`); `acc1` is the accumulator after
   each point, a recursion over that arithmetic; the proof data `dat1` puts every input window's buffer at its block,
   the output window's at the accumulator's contents, and tracks the accumulator in the region invariant; the body
   obligation follows by cases on the point (first / middle / last). Everything is stated at a parameter `V`, the buffer
   contents on entry to the region. -/
import proofs.«133496_j32933809226222_1_alg».proof.Proof.KI.R1RunA
import proofs.«133496_j32933809226222_1_alg».proof.Proof.KI.R1RunB
import proofs.«133496_j32933809226222_1_alg».proof.Proof.KI.R1RunC
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The runs' pieces, read back as the body's arithmetic -/

/-- Both offsets of a whole-buffer access are zero. -/
theorem hz : (![0, 0] : Fin 2 → Nat) = fun _ => 0 := funext fun a => by fin_cases a <;> rfl

/-- FIRST POINT. Whatever the accumulator held, after the body it reads back as this point's contribution added to
    the zero fill: the second of its two whole-buffer stores is the last, and the value that store adds to is the read
    of the first store, the zero fill. -/
theorem accA_eq (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : cond1_0 i) (hc1 : ¬cond1_1 i)
    (x0 : Vec F S1x4096 .f32) (x1 : Vec F S4096x1 .f32) (x2 : Vec F S4096x1 .f32) (x3 : Vec F S4096x512 .f32) (x4 : Vec F S4096x512 .f32) (v : View sig .tc .vmem S4096x1 .f32) (f : v.ty.Contents (Elt F)) :
    v.read (Elt F) (v.writes (Elt F) f (kernelRun1_A c i arg1 harg1 arg2 harg2 arg3 harg3 arg4 harg4 arg5 harg5 arg6 harg6 arg7 harg7 hc0 hc1 x0 x1 x2 x3 x4).1)
      = k1_pay2 x0 x3 x4 (k1_pay1 (F := F)) := by
  rw [View.read_writes_eq_canon _ _ _ (fun y => View.cover_of_tiledL (kernelRun1_A c i arg1 harg1 arg2 harg2 arg3 harg3 arg4 harg4 arg5 harg5 arg6 harg6 arg7 harg7 hc0 hc1 x0 x1 x2 x3 x4).1 S4096x1.size (by sl_kernel_rfl) y)]
  unfold kernelRun1_A
  dsimp only
  sl_unfold_run_names
  rw [View.canon_cons_unit_zero (S := S4096x1) hz, View.readCov_unit_zero (S := S4096x1) _ hz]
  simp only [View.readAt_eq_ld, harg1.read_unread, harg4.read_unread, harg5.read_unread,
    View.ld_unit_zero (S := S1x4096) hz, View.ld_unit_zero (S := S4096x512) hz]

/-- MIDDLE POINT. With the accumulator at `xs`, after the body it reads back as `xs` plus this point's contribution:
    one whole-buffer store, whose loads read the whole input buffers and the accumulator. -/
theorem accB_eq (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : ¬cond1_1 i)
    (x0 : Vec F S1x4096 .f32) (x1 : Vec F S4096x1 .f32) (x2 : Vec F S4096x1 .f32) (x3 : Vec F S4096x512 .f32) (x4 : Vec F S4096x512 .f32) (xs : Vec F S4096x1 .f32) (v : View sig .tc .vmem S4096x1 .f32) (f : v.ty.Contents (Elt F)) :
    v.read (Elt F) (v.writes (Elt F) f (kernelRun1_B c i arg1 harg1 arg2 harg2 arg3 harg3 arg4 harg4 arg5 harg5 arg6 harg6 arg7 harg7 hc0 hc1 x0 x1 x2 x3 x4 xs).1)
      = k1_pay2 x0 x3 x4 xs := by
  rw [View.read_writes_eq_canon _ _ _ (fun y => View.cover_of_tiledL (kernelRun1_B c i arg1 harg1 arg2 harg2 arg3 harg3 arg4 harg4 arg5 harg5 arg6 harg6 arg7 harg7 hc0 hc1 x0 x1 x2 x3 x4 xs).1 S4096x1.size (by sl_kernel_rfl) y)]
  unfold kernelRun1_B
  dsimp only
  rw [View.canon_unit_zero (S := S4096x1) hz]
  simp only [View.readAt_eq_ld, harg1.read_unread, harg4.read_unread, harg5.read_unread, harg7.read_unread,
    View.ld_unit_zero (S := S1x4096) hz, View.ld_unit_zero (S := S4096x512) hz, View.ld_unit_zero (S := S4096x1) hz]

/-- LAST POINT, the accumulator. With the accumulator at `xs`, after the body it reads back as `xs` plus this point's
    cache contribution plus the new column's: the second whole-buffer store is the last, and the value it adds to is
    the read of the first. -/
theorem accC_eq (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : cond1_1 i)
    (x0 : Vec F S1x4096 .f32) (x1 : Vec F S4096x1 .f32) (x2 : Vec F S4096x1 .f32) (x3 : Vec F S4096x512 .f32) (x4 : Vec F S4096x512 .f32) (xs : Vec F S4096x1 .f32) (v : View sig .tc .vmem S4096x1 .f32) (f : v.ty.Contents (Elt F)) :
    v.read (Elt F) (v.writes (Elt F) f (kernelRun1_C c i arg1 harg1 arg2 harg2 arg3 harg3 arg4 harg4 arg5 harg5 arg6 harg6 arg7 harg7 hc0 hc1 x0 x1 x2 x3 x4 xs).2.1)
      = k1_pay3 x0 x1 (k1_pay2 x0 x3 x4 xs) x2 := by
  rw [View.read_writes_eq_canon _ _ _ (fun y => View.cover_of_tiledL (kernelRun1_C c i arg1 harg1 arg2 harg2 arg3 harg3 arg4 harg4 arg5 harg5 arg6 harg6 arg7 harg7 hc0 hc1 x0 x1 x2 x3 x4 xs).2.1 S4096x1.size (by sl_kernel_rfl) y)]
  unfold kernelRun1_C
  dsimp only
  sl_unfold_run_names
  rw [View.canon_cons_unit_zero (S := S4096x1) hz, View.readCov_unit_zero (S := S4096x1) _ hz]
  simp only [View.readAt_eq_ld, harg1.read_unread, harg2.read_unread, harg3.read_unread, harg4.read_unread, harg5.read_unread, harg7.read_unread,
    View.ld_unit_zero (S := S1x4096) hz, View.ld_unit_zero (S := S4096x512) hz, View.ld_unit_zero (S := S4096x1) hz]

/-- LAST POINT, the output window. Its buffer is written by one whole-buffer store of what the accumulator then
    reads (after both of that point's stores into it): the same value. -/
theorem outC_eq (c : Dev nD) (i : grid1.Coords) (arg1 : Memref sig .tc .vmem S1x4096 .f32) (harg1 : arg1.IsWhole) (arg2 : Memref sig .tc .vmem S4096x1 .f32) (harg2 : arg2.IsWhole) (arg3 : Memref sig .tc .vmem S4096x1 .f32) (harg3 : arg3.IsWhole) (arg4 : Memref sig .tc .vmem S4096x512 .f32) (harg4 : arg4.IsWhole) (arg5 : Memref sig .tc .vmem S4096x512 .f32) (harg5 : arg5.IsWhole) (arg6 : Memref sig .tc .vmem S4096x1 .f32) (harg6 : arg6.IsWhole) (arg7 : Memref sig .tc .vmem S4096x1 .f32) (harg7 : arg7.IsWhole) (hc0 : ¬cond1_0 i) (hc1 : cond1_1 i)
    (x0 : Vec F S1x4096 .f32) (x1 : Vec F S4096x1 .f32) (x2 : Vec F S4096x1 .f32) (x3 : Vec F S4096x512 .f32) (x4 : Vec F S4096x512 .f32) (xs : Vec F S4096x1 .f32) (v : View sig .tc .vmem S4096x1 .f32) (f : v.ty.Contents (Elt F)) :
    v.read (Elt F) (v.writes (Elt F) f (kernelRun1_C c i arg1 harg1 arg2 harg2 arg3 harg3 arg4 harg4 arg5 harg5 arg6 harg6 arg7 harg7 hc0 hc1 x0 x1 x2 x3 x4 xs).1)
      = k1_pay3 x0 x1 (k1_pay2 x0 x3 x4 xs) x2 := by
  rw [View.read_writes_eq_canon _ _ _ (fun y => View.cover_of_tiledL (kernelRun1_C c i arg1 harg1 arg2 harg2 arg3 harg3 arg4 harg4 arg5 harg5 arg6 harg6 arg7 harg7 hc0 hc1 x0 x1 x2 x3 x4 xs).1 S4096x1.size (by sl_kernel_rfl) y)]
  unfold kernelRun1_C
  dsimp only
  sl_unfold_run_names
  rw [View.canon_unit_zero (S := S4096x1) hz,
    View.readCov_eq_canon_ld _ _ _ (fun y => ⟨_, List.Mem.head _, View.mem_set_unit_zero hz inb_S4096x1_S4096x1_0_0 y⟩),
    View.canon_cons_unit_zero (S := S4096x1) hz, View.ld_unit_zero (S := S4096x1) hz,
    View.readCov_unit_zero (S := S4096x1) _ hz]
  simp only [View.readAt_eq_ld, harg1.read_unread, harg2.read_unread, harg3.read_unread, harg4.read_unread, harg5.read_unread, harg7.read_unread,
    View.ld_unit_zero (S := S1x4096) hz, View.ld_unit_zero (S := S4096x512) hz, View.ld_unit_zero (S := S4096x1) hz]

section Entry
-- the buffer contents on entry to the region: everything below is stated at this parameter
variable (V : (c : Dev nD) → (b : Ref sig .tc) → Buf (Elt F) ((c : Thread nD τ).loc b))

/-! ## What the accumulator holds after each point -/

/-- The `n`-th point of the grid (`n` taken modulo the 16 points, so that the recursion below needs no bound). -/
def pt1 (n : ℕ) : Fin cfg1.N := ⟨n % 16, lt_of_lt_of_eq (Nat.mod_lt n (by decide)) N_1.symm⟩

theorem pt1_val (t : Fin cfg1.N) : pt1 t.val = t :=
  Fin.ext (Nat.mod_eq_of_lt (lt_of_lt_of_eq t.isLt N_1))

/-- THE ACCUMULATION, over the body's own arithmetic. `acc1 n` is what the accumulator holds after the first `n`
    points: before any point the zero fill (what the first point's clearing store writes, whatever was there); each of
    the points 0..14 adds its cache block's contribution (the first over the zero fill) — `k1_pay2` of the query, that
    point's block of the key cache, that point's block of the value cache, and what was there; the last point, 15,
    adds its cache block's contribution and then the new column's — `k1_pay3` of the query, the new key, that sum,
    the new value. -/
def acc1 (c : Dev nD) : (n : ℕ) → Vec F S4096x1 .f32
  | 0 => k1_pay1 (F := F)
  | n + 1 =>
    if n = 15 then
      k1_pay3 (iblk1 V c 0 (pt1 n)) (iblk1 V c 1 (pt1 n))
        (k1_pay2 (iblk1 V c 0 (pt1 n)) (iblk1 V c 3 (pt1 n)) (iblk1 V c 4 (pt1 n)) (acc1 c n)) (iblk1 V c 2 (pt1 n))
    else
      k1_pay2 (iblk1 V c 0 (pt1 n)) (iblk1 V c 3 (pt1 n)) (iblk1 V c 4 (pt1 n)) (acc1 c n)

theorem acc1_zero (c : Dev nD) : acc1 V c 0 = k1_pay1 (F := F) := rfl

/-- After a point that is not the last: what was there plus that point's contribution. -/
theorem acc1_succ (c : Dev nD) (t : Fin cfg1.N) (h : t.val ≠ 15) :
    acc1 V c (t.val + 1) = k1_pay2 (iblk1 V c 0 t) (iblk1 V c 3 t) (iblk1 V c 4 t) (acc1 V c t.val) := by
  rw [acc1, if_neg h, pt1_val]

/-- After the last point: that plus the new column's contribution. -/
theorem acc1_last (c : Dev nD) (t : Fin cfg1.N) (h : t.val = 15) :
    acc1 V c (t.val + 1) = k1_pay3 (iblk1 V c 0 t) (iblk1 V c 1 t)
      (k1_pay2 (iblk1 V c 0 t) (iblk1 V c 3 t) (iblk1 V c 4 t) (acc1 V c t.val)) (iblk1 V c 2 t) := by
  rw [acc1, if_pos h, pt1_val]

/-! ## The region invariant, point by point -/

/-- Before the first point the class's invariant (the accumulator at anything); before point `n + 1` the same with
    the accumulator at what the first `n + 1` points left. -/
def Phi1 (c : Dev nD) : ℕ → sProp 𝕄
  | 0 => Pipeline.ΦA spec1 c
  | n + 1 => inv1 c (owns (c : Thread nD τ) scM1 fullShare (acc1 V c (n + 1)))

theorem Phi1_zero (c : Dev nD) (n : ℕ) (hz : n = 0) : Phi1 V c n = Pipeline.ΦA spec1 c := by
  subst hz; rfl

theorem Phi1_succ (c : Dev nD) (n : ℕ) :
    Phi1 V c (n + 1) = inv1 c (owns (c : Thread nD τ) scM1 fullShare (acc1 V c (n + 1))) := rfl

theorem Phi1_pos (c : Dev nD) (n : ℕ) (hz : n ≠ 0) :
    Phi1 V c n = inv1 c (owns (c : Thread nD τ) scM1 fullShare (acc1 V c n)) := by
  cases n with
  | zero => exact absurd rfl hz
  | succ n => rfl

/-! ## The proof data -/

/-- The proof data of the region on core `c`: the arrays as the region finds them; after the body at point `t` each
    input's buffer at its block (the body stores into no input) and the output's at what the accumulator then holds
    (consulted at the last point only: elsewhere the window is idle and not written back); the invariant `Phi1`;
    full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c (t.val + 1)
  Φ t := Phi1 V c t.val
  q _ := fullShare
  owed _ := 0

/-- The proof data's arrays are the entry contents (the definition projected; the contents are never unfolded). -/
theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1 V c (t.val + 1) := by dsimp only [dat1]

/-- The output window's buffer after the body at the last point: the accumulator's final contents. -/
theorem after1_5_last (c : Dev nD) : (dat1 V c).after 5 ⟨15, by decide⟩ = acc1 V c 16 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`: the invariant, the core's dues, and each window's current staging buffer
    at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- An input window is never idle: the body leaves its buffer at the block. -/
theorem leaves_in (c : Dev nD) (t : Fin cfg1.N) :
    (dat1 V c).leavesExact 0 t = owns (c : Thread nD τ) (st1_0 t) fullShare (iblk1 V c 0 t)
    ∧ (dat1 V c).leavesExact 1 t = owns (c : Thread nD τ) (st1_1 t) fullShare (iblk1 V c 1 t)
    ∧ (dat1 V c).leavesExact 2 t = owns (c : Thread nD τ) (st1_2 t) fullShare (iblk1 V c 2 t)
    ∧ (dat1 V c).leavesExact 3 t = owns (c : Thread nD τ) (st1_3 t) fullShare (iblk1 V c 3 t)
    ∧ (dat1 V c).leavesExact 4 t = owns (c : Thread nD τ) (st1_4 t) fullShare (iblk1 V c 4 t) := by
  refine ⟨?_, ?_, ?_, ?_, ?_⟩
  · unfold Dat.leavesExact; rw [show cfg1.idle 0 (cfg1.grid.coords t) = false from rfl, after1_0]
  · unfold Dat.leavesExact; rw [show cfg1.idle 1 (cfg1.grid.coords t) = false from rfl, after1_1]
  · unfold Dat.leavesExact; rw [show cfg1.idle 2 (cfg1.grid.coords t) = false from rfl, after1_2]
  · unfold Dat.leavesExact; rw [show cfg1.idle 3 (cfg1.grid.coords t) = false from rfl, after1_3]
  · unfold Dat.leavesExact; rw [show cfg1.idle 4 (cfg1.grid.coords t) = false from rfl, after1_4]

set_option maxHeartbeats 4800000 in
/-- The body at any point. The inputs' memrefs hold their blocks; the closed forms of the two conditions say which of
    the three runs applies (first point / a middle point / last point); the invariant hands the run the accumulator —
    at anything at the first point, at what the points before left otherwise — and takes it back at this point's
    contents (the run's pieces read back as the body's arithmetic); the first call's staging buffers, the generator
    register and the core's dues pass through untouched; away from the last point the output window's buffer is handed
    back as found, at the last point it holds a copy of the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) from rfl, Phi1_succ]
  rw [(leaves_in V c t).1, (leaves_in V c t).2.1, (leaves_in V c t).2.2.1, (leaves_in V c t).2.2.2.1, (leaves_in V c t).2.2.2.2]
  have hN : t.val < 16 := lt_of_lt_of_eq t.isLt N_1
  by_cases h1 : t.val = 15
  · -- the last point
    have h0 : ¬t.val = 0 := by omega
    rw [show (dat1 V c).leavesExact 5 t = owns (c : Thread nD τ) (st1_5 t) fullShare ((dat1 V c).after 5 t) from by
      unfold Dat.leavesExact; rw [liveAt1_5 t ((hcond1_1 t).mpr h1)], after1_5]
    rw [acc1_last V c t h1, Phi1_castSucc V c t, Phi1_pos V c _ h0]
    unfold inv1
    iintro ⟨⟨⟨R1, R2, R3, R4, R5, R6, R7, R8, R9, R10, R11, R12, R13, R14, HS0⟩, Hg⟩, Ho, ⟨%d0, H0⟩, ⟨%d1, H1⟩, ⟨%d2, H2⟩, ⟨%d3, H3⟩, ⟨%d4, H4⟩, ⟨%d5, H5⟩⟩
    iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (acc1 V c t.val)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [R1 R2 R3 R4 R5 R6 R7 R8 R9 R10 R11 R12 R13 R14 HS0 Hg]
    · isplitr [Hg]
      swap; · iexact Hg
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      unfold owns; iexists _; isplitr
      swap; · iexact HS0
      ipureintro; exact accC_eq (F := F) c (grid1.coords t) _ _ _ _ _ _ _ _ _ _ _ _ _ _ _ _ (iblk1 V c 0 t) (iblk1 V c 1 t) (iblk1 V c 2 t) (iblk1 V c 3 t) (iblk1 V c 4 t) (acc1 V c t.val) _ _
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact outC_eq (F := F) c (grid1.coords t) _ _ _ _ _ _ _ _ _ _ _ _ _ _ _ _ (iblk1 V c 0 t) (iblk1 V c 1 t) (iblk1 V c 2 t) (iblk1 V c 3 t) (iblk1 V c 4 t) (acc1 V c t.val) _ _
  · rw [Dat.leavesExact_idle (dat1 V c) 5 t (idleAt1_5 t (fun h => h1 ((hcond1_1 t).mp h))) (noFlush1_5 t (fun h => h1 ((hcond1_1 t).mp h)))]
    rw [acc1_succ V c t h1, Phi1_castSucc V c t]
    by_cases h0 : t.val = 0
    · -- the first point: the accumulator arrives at anything, and the zero fill is what this point adds to
      rw [Phi1_zero V c _ h0, PhiA1_eq, show acc1 V c t.val = k1_pay1 (F := F) from by rw [h0]; rfl]
      unfold inv1
      iintro ⟨⟨⟨R1, R2, R3, R4, R5, R6, R7, R8, R9, R10, R11, R12, R13, R14, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R1 R2 R3 R4 R5 R6 R7 R8 R9 R10 R11 R12 R13 R14 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        unfold owns; iexists _; isplitr
        swap; · iexact HS0
        ipureintro; exact accA_eq (F := F) c (grid1.coords t) _ _ _ _ _ _ _ _ _ _ _ _ _ _ _ _ (iblk1 V c 0 t) (iblk1 V c 1 t) (iblk1 V c 2 t) (iblk1 V c 3 t) (iblk1 V c 4 t) _ _
      isplitl [Ho]; · iexact Ho
      isplitl [H0]; · iexact H0
      isplitl [H1]; · iexact H1
      isplitl [H2]; · iexact H2
      isplitl [H3]; · iexact H3
      isplitl [H4]; · iexact H4
      iexists _; iexact H5
    · -- a middle point
      rw [Phi1_pos V c _ h0]
      unfold inv1
      iintro ⟨⟨⟨R1, R2, R3, R4, R5, R6, R7, R8, R9, R10, R11, R12, R13, R14, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (acc1 V c t.val)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R1 R2 R3 R4 R5 R6 R7 R8 R9 R10 R11 R12 R13 R14 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        unfold owns; iexists _; isplitr
        swap; · iexact HS0
        ipureintro; exact accB_eq (F := F) c (grid1.coords t) _ _ _ _ _ _ _ _ _ _ _ _ _ _ _ _ (iblk1 V c 0 t) (iblk1 V c 1 t) (iblk1 V c 2 t) (iblk1 V c 3 t) (iblk1 V c 4 t) (acc1 V c t.val) _ _
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 from rfl, Phi1_zero V c 0 rfl]
  try exact Idealize.SL.BI.Entails.refl _

/-- After the last point the invariant gives the class's back: what the accumulator holds is forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val from rfl,
    Phi1_pos V c _ (by rw [Fin.val_last]; have : cfg1.N = 16 := N_1; omega), PhiA1_eq]
  unfold inv1
  iintro ⟨⟨R1, R2, R3, R4, R5, R6, R7, R8, R9, R10, R11, R12, R13, R14, HS0⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexists _; iexact HS0

end Entry

end Cert.KernelIdeal.R1

end
-- ==== Proof.KI.Run.lean ====
/-
  The run of the whole program: the host transpose of the embedding, then the region that forms the query, the new
  key and the new value, then the region that attends over the caches, composed in order from the launch to the
  return. What each buffer holds between the items is a fold from the launch memory; the arguments are read back
  through it unchanged, and the result buffer ends at what the second region's last write-back leaves.
-/
import proofs.«133496_j32933809226222_1_alg».proof.Proof.KI.R0Body
import proofs.«133496_j32933809226222_1_alg».proof.Proof.KI.R1Body
import proofs.«133496_j32933809226222_1_alg».proof.Proof.Gen.KernelIdeal.Launch
import proofs.«133496_j32933809226222_1_alg».proof.Proof.Gen.KernelIdeal.Skeleton
import proofs.«133496_j32933809226222_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.R0 Cert.KernelIdeal.R1

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the TensorCore's buffers hold between the items of @main

@main is: transpose the embedding (a host operation), compute the three projections (region 0), attend over the caches
(region 1). The contents at each boundary are a fold from the launch memory. -/

/-- At launch. -/
abbrev W0 : Dev nD → Valuation τ sig (Elt F) := fun c b => (s₀ m ρ).mem ((c : Dev nD), b)
/-- After the transpose: region 0's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The transpose writes only its own result. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))
/-- After region 0: its arrays at what its write-backs leave (an input as entered, the query, the new key and the new
    value block by block), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After region 1: its arrays at what its write-backs leave (the result written at the last point), every other
    buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- Argument 0 is read by region 0 through an input window and bypasses region 1; the host transpose does not write it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl

/-- Argument 1 is read by region 0 through an input window and bypasses region 1; the host transpose does not write it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := W1_of_ne m ρ c main_arg1 (by decide)
    _ = m ((c : Thread nD τ).loc main_arg1) := rfl

/-- Argument 2 is read by region 0 through an input window and bypasses region 1; the host transpose does not write it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := W1_of_ne m ρ c main_arg2 (by decide)
    _ = m ((c : Thread nD τ).loc main_arg2) := rfl

/-- Argument 3 is read by region 0 through an input window and bypasses region 1; the host transpose does not write it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := W1_of_ne m ρ c main_arg3 (by decide)
    _ = m ((c : Thread nD τ).loc main_arg3) := rfl

/-- Argument 4 bypasses region 0 and is read by region 1 through an input window; the host transpose does not write it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 3).trans (((dat1 (V2 m ρ) c).arrAt_in 3 rfl _).trans (A_eq1 (V2 m ρ) c 3))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- Argument 5 bypasses region 0 and is read by region 1 through an input window; the host transpose does not write it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 4).trans (((dat1 (V2 m ρ) c).arrAt_in 4 rfl _).trans (A_eq1 (V2 m ρ) c 4))
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## The proof data of both pipelines and the state a core carries between items -/

/-- No pipeline prefetches a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register at some state and owes nothing. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The transpose as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (W3 m ρ c) ∗ ∃ r, prngReg c r)

/-! ## The two regions as segments -/

set_option backward.isDefEq.respectTransparency.types false in
/-- Region 0 as a segment of @main: entered with every unscoped buffer at `W1`, left with them at `W2`. Its
    arrays are split out of the unscoped buffers at entry and put back at the contents the write-backs leave at exit;
    the generator register goes into the region's invariant and comes out; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W2`, left with them at `W3`. Its
    arrays are split out of the unscoped buffers at entry and put back at the contents the write-backs leave at exit;
    the generator register goes into the region's invariant and comes out; nothing is owed; the kernel has no
    semaphore of its own. The invariant is the kernel's own (the accumulator kept in scratch): entered from the plain
    one before the first point and returned to it after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the run -/

abbrev segs : List (Pipeline.Seg (pcfgs (F := F)) adm (pdats m ρ) () defs₀ 𝒱₀ L lv) :=
  [ .host (hseg0 m ρ), .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds, in each unscoped buffer, the fold's last contents `W3`: the arguments as launched
    (`W3_main_argK`) and the result at what region 1's write-back leaves (`W3_arr`). -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame claim's post at any `F`: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run m ρ)

end Cert.KernelIdeal.Run

end
-- ==== Proof.LibSumBlocks.lean ====
/-
  A sum over `m * n` consecutive positions, cut into `m` consecutive blocks of `n` positions each.
-/
import Mathlib.Algebra.BigOperators.Fin
import Mathlib.Logic.Equiv.Fin.Basic

open scoped BigOperators

namespace Cert.LibSumBlocks

/-- Position `j` of block `t`, of `m` blocks of `n` positions, lies below `m * n`. -/
theorem block_pos_lt {m n N : ℕ} (h : m * n = N) (t : Fin m) (j : Fin n) : t.val * n + j.val < N := by
  subst h
  calc t.val * n + j.val < t.val * n + n := Nat.add_lt_add_left j.isLt _
    _ = (t.val + 1) * n := (Nat.succ_mul _ _).symm
    _ ≤ m * n := Nat.mul_le_mul_right _ t.isLt

/-- Summing block by block is summing over all positions: every position `τ < m * n` is position `τ % n` of block
    `τ / n`, once. Stated with the total `N` as a separate number so that it applies at literal extents
    (`16` blocks of `512` in `8192`) with `h` closed by `rfl`. -/
theorem sum_blocks_general {M : Type*} [AddCommMonoid M] (m n N : ℕ) (h : m * n = N) (f : Fin N → M) :
    ∑ t : Fin m, ∑ j : Fin n, f ⟨t.val * n + j.val, block_pos_lt h t j⟩ = ∑ τ : Fin N, f τ := by
  subst h
  rw [← Equiv.sum_comp finProdFinEquiv f, Fintype.sum_prod_type]
  refine Finset.sum_congr rfl fun t _ => Finset.sum_congr rfl fun j _ => congrArg f (Fin.ext ?_)
  show t.val * n + j.val = j.val + n * t.val
  rw [Nat.mul_comm, Nat.add_comm]

end Cert.LibSumBlocks
-- ==== Proof.KI.Pay.lean ====
/-
  The arithmetic of the kernel's stored values, at the ideal instance (every float an extended real): each value the two
  kernel bodies store, read at one index, as a plain sum of products; and the regrouping of sixteen blocks' sums into
  one sum over all cached columns.
-/
import proofs.«133496_j32933809226222_1_alg».proof.Proof.Gen.KernelIdeal.Skeleton
import proofs.«133496_j32933809226222_1_alg».proof.Proof.Spec
import proofs.«133496_j32933809226222_1_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The five matrix products, read at an index

Each product contracts ONE axis of each operand, so its contraction index is one coordinate `e`; the operand indices at
output index `(p, q)` and contraction position `e` are computed coordinate by coordinate from the dimension numbers:
the left operand's free axis reads `p`, the right operand's free axis reads `q`, and each contracted axis reads `e`.
Into a zero accumulator the product's entry is the plain sum over `e` of the operands' products. -/

/-! ### The row-times-rows product of region 0: a `1 × 4096` row against a `256 × 4096` block, both contracted along their second axis -/

theorem dq_lhs_non (i : S1x256.Idx) (q : dot_S1x4096_S256x4096_S1x256_1_1_0_0_n_n.contr.Idx) :
    (dot_S1x4096_S256x4096_S1x256_1_1_0_0_n_n.lhsIdx i q 0).val = (i 0).val := by
  unfold DotDims.lhsIdx
  rw [dif_neg (show ¬(0 : Fin S1x4096.rank) ∈ dot_S1x4096_S256x4096_S1x256_1_1_0_0_n_n.lhsBatch by decide), dif_pos (show (0 : Fin S1x4096.rank) ∈ dot_S1x4096_S256x4096_S1x256_1_1_0_0_n_n.lhsNonContracting by decide)]
  rfl
theorem dq_lhs_con (i : S1x256.Idx) (q : dot_S1x4096_S256x4096_S1x256_1_1_0_0_n_n.contr.Idx) :
    (dot_S1x4096_S256x4096_S1x256_1_1_0_0_n_n.lhsIdx i q 1).val = (q ⟨0, by decide⟩).val :=
  dot_S1x4096_S256x4096_S1x256_1_1_0_0_n_n.lhsIdx_val_of_single rfl i q
theorem dq_rhs_non (i : S1x256.Idx) (q : dot_S1x4096_S256x4096_S1x256_1_1_0_0_n_n.contr.Idx) :
    (dot_S1x4096_S256x4096_S1x256_1_1_0_0_n_n.rhsIdx i q 0).val = (i 1).val := by
  unfold DotDims.rhsIdx
  rw [dif_neg (show ¬(0 : Fin S256x4096.rank) ∈ dot_S1x4096_S256x4096_S1x256_1_1_0_0_n_n.rhsBatch by decide), dif_pos (show (0 : Fin S256x4096.rank) ∈ dot_S1x4096_S256x4096_S1x256_1_1_0_0_n_n.rhsNonContracting by decide)]
  rfl
theorem dq_rhs_con (i : S1x256.Idx) (q : dot_S1x4096_S256x4096_S1x256_1_1_0_0_n_n.contr.Idx) :
    (dot_S1x4096_S256x4096_S1x256_1_1_0_0_n_n.rhsIdx i q 1).val = (q ⟨0, by decide⟩).val :=
  dot_S1x4096_S256x4096_S1x256_1_1_0_0_n_n.rhsIdx_val_of_single rfl i q

/-- Entry `(p, q)` of the product of a row `l` with the rows of `r`: `∑ₑ l[p,e] · r[q,e]`. -/
theorem mm_q (l : FVec Ideal S1x4096 .f32) (r : FVec Ideal S256x4096 .f32) (p : Fin 1) (q : Fin 256) :
    matmul dot_S1x4096_S256x4096_S1x256_1_1_0_0_n_n none l r (constant (F := Ideal) S1x256 .f32 0x00000000#32) (ix2 p q)
      = ∑ e : Fin 4096, l (ix2 p e) * r (ix2 q e) := by
  refine (Ideal.matmul_constant_zero_apply dot_S1x4096_S256x4096_S1x256_1_1_0_0_n_n none l r (ix2 p q)).trans ?_
  rw [← Equiv.sum_comp (contrEquiv1 dot_S1x4096_S256x4096_S1x256_1_1_0_0_n_n 4096 rfl rfl).symm]
  refine Finset.sum_congr rfl fun e _ => ?_
  have hk := contrEquiv1_symm_val dot_S1x4096_S256x4096_S1x256_1_1_0_0_n_n 4096 rfl rfl e
  have el : dot_S1x4096_S256x4096_S1x256_1_1_0_0_n_n.lhsIdx (ix2 p q) ((contrEquiv1 dot_S1x4096_S256x4096_S1x256_1_1_0_0_n_n 4096 rfl rfl).symm e) = ix2 p e :=
    funext fun ax => Fin.ext (by
      match ax with
      | ⟨0, _⟩ => exact dq_lhs_non _ _
      | ⟨1, _⟩ => exact (dq_lhs_con _ _).trans hk)
  have er : dot_S1x4096_S256x4096_S1x256_1_1_0_0_n_n.rhsIdx (ix2 p q) ((contrEquiv1 dot_S1x4096_S256x4096_S1x256_1_1_0_0_n_n 4096 rfl rfl).symm e) = ix2 q e :=
    funext fun ax => Fin.ext (by
      match ax with
      | ⟨0, _⟩ => exact dq_rhs_non _ _
      | ⟨1, _⟩ => exact (dq_rhs_con _ _).trans hk)
  rw [el, er]

/-! ### The block-times-column product of region 0: a `256 × 4096` block against a `4096 × 1` column -/

theorem dk_lhs_non (i : S256x1.Idx) (q : dot_S256x4096_S4096x1_S256x1_1_0_0_1_n_n.contr.Idx) :
    (dot_S256x4096_S4096x1_S256x1_1_0_0_1_n_n.lhsIdx i q 0).val = (i 0).val := by
  unfold DotDims.lhsIdx
  rw [dif_neg (show ¬(0 : Fin S256x4096.rank) ∈ dot_S256x4096_S4096x1_S256x1_1_0_0_1_n_n.lhsBatch by decide), dif_pos (show (0 : Fin S256x4096.rank) ∈ dot_S256x4096_S4096x1_S256x1_1_0_0_1_n_n.lhsNonContracting by decide)]
  rfl
theorem dk_lhs_con (i : S256x1.Idx) (q : dot_S256x4096_S4096x1_S256x1_1_0_0_1_n_n.contr.Idx) :
    (dot_S256x4096_S4096x1_S256x1_1_0_0_1_n_n.lhsIdx i q 1).val = (q ⟨0, by decide⟩).val :=
  dot_S256x4096_S4096x1_S256x1_1_0_0_1_n_n.lhsIdx_val_of_single rfl i q
theorem dk_rhs_non (i : S256x1.Idx) (q : dot_S256x4096_S4096x1_S256x1_1_0_0_1_n_n.contr.Idx) :
    (dot_S256x4096_S4096x1_S256x1_1_0_0_1_n_n.rhsIdx i q 1).val = (i 1).val := by
  unfold DotDims.rhsIdx
  rw [dif_neg (show ¬(1 : Fin S4096x1.rank) ∈ dot_S256x4096_S4096x1_S256x1_1_0_0_1_n_n.rhsBatch by decide), dif_pos (show (1 : Fin S4096x1.rank) ∈ dot_S256x4096_S4096x1_S256x1_1_0_0_1_n_n.rhsNonContracting by decide)]
  rfl
theorem dk_rhs_con (i : S256x1.Idx) (q : dot_S256x4096_S4096x1_S256x1_1_0_0_1_n_n.contr.Idx) :
    (dot_S256x4096_S4096x1_S256x1_1_0_0_1_n_n.rhsIdx i q 0).val = (q ⟨0, by decide⟩).val :=
  dot_S256x4096_S4096x1_S256x1_1_0_0_1_n_n.rhsIdx_val_of_single rfl i q

/-- Entry `(p, q)` of the product of a block `l` with a column `r`: `∑ₑ l[p,e] · r[e,q]`. -/
theorem mm_k (l : FVec Ideal S256x4096 .f32) (r : FVec Ideal S4096x1 .f32) (p : Fin 256) (q : Fin 1) :
    matmul dot_S256x4096_S4096x1_S256x1_1_0_0_1_n_n none l r (constant (F := Ideal) S256x1 .f32 0x00000000#32) (ix2 p q)
      = ∑ e : Fin 4096, l (ix2 p e) * r (ix2 e q) := by
  refine (Ideal.matmul_constant_zero_apply dot_S256x4096_S4096x1_S256x1_1_0_0_1_n_n none l r (ix2 p q)).trans ?_
  rw [← Equiv.sum_comp (contrEquiv1 dot_S256x4096_S4096x1_S256x1_1_0_0_1_n_n 4096 rfl rfl).symm]
  refine Finset.sum_congr rfl fun e _ => ?_
  have hk := contrEquiv1_symm_val dot_S256x4096_S4096x1_S256x1_1_0_0_1_n_n 4096 rfl rfl e
  have el : dot_S256x4096_S4096x1_S256x1_1_0_0_1_n_n.lhsIdx (ix2 p q) ((contrEquiv1 dot_S256x4096_S4096x1_S256x1_1_0_0_1_n_n 4096 rfl rfl).symm e) = ix2 p e :=
    funext fun ax => Fin.ext (by
      match ax with
      | ⟨0, _⟩ => exact dk_lhs_non _ _
      | ⟨1, _⟩ => exact (dk_lhs_con _ _).trans hk)
  have er : dot_S256x4096_S4096x1_S256x1_1_0_0_1_n_n.rhsIdx (ix2 p q) ((contrEquiv1 dot_S256x4096_S4096x1_S256x1_1_0_0_1_n_n 4096 rfl rfl).symm e) = ix2 e q :=
    funext fun ax => Fin.ext (by
      match ax with
      | ⟨0, _⟩ => exact (dk_rhs_con _ _).trans hk
      | ⟨1, _⟩ => exact dk_rhs_non _ _)
  rw [el, er]

/-! ### The scores of region 1: the `1 × 4096` query row against a `4096 × 512` block of cached keys -/

theorem ds_lhs_non (i : S1x512.Idx) (q : dot_S1x4096_S4096x512_S1x512_1_0_0_1_n_n.contr.Idx) :
    (dot_S1x4096_S4096x512_S1x512_1_0_0_1_n_n.lhsIdx i q 0).val = (i 0).val := by
  unfold DotDims.lhsIdx
  rw [dif_neg (show ¬(0 : Fin S1x4096.rank) ∈ dot_S1x4096_S4096x512_S1x512_1_0_0_1_n_n.lhsBatch by decide), dif_pos (show (0 : Fin S1x4096.rank) ∈ dot_S1x4096_S4096x512_S1x512_1_0_0_1_n_n.lhsNonContracting by decide)]
  rfl
theorem ds_lhs_con (i : S1x512.Idx) (q : dot_S1x4096_S4096x512_S1x512_1_0_0_1_n_n.contr.Idx) :
    (dot_S1x4096_S4096x512_S1x512_1_0_0_1_n_n.lhsIdx i q 1).val = (q ⟨0, by decide⟩).val :=
  dot_S1x4096_S4096x512_S1x512_1_0_0_1_n_n.lhsIdx_val_of_single rfl i q
theorem ds_rhs_non (i : S1x512.Idx) (q : dot_S1x4096_S4096x512_S1x512_1_0_0_1_n_n.contr.Idx) :
    (dot_S1x4096_S4096x512_S1x512_1_0_0_1_n_n.rhsIdx i q 1).val = (i 1).val := by
  unfold DotDims.rhsIdx
  rw [dif_neg (show ¬(1 : Fin S4096x512.rank) ∈ dot_S1x4096_S4096x512_S1x512_1_0_0_1_n_n.rhsBatch by decide), dif_pos (show (1 : Fin S4096x512.rank) ∈ dot_S1x4096_S4096x512_S1x512_1_0_0_1_n_n.rhsNonContracting by decide)]
  rfl
theorem ds_rhs_con (i : S1x512.Idx) (q : dot_S1x4096_S4096x512_S1x512_1_0_0_1_n_n.contr.Idx) :
    (dot_S1x4096_S4096x512_S1x512_1_0_0_1_n_n.rhsIdx i q 0).val = (q ⟨0, by decide⟩).val :=
  dot_S1x4096_S4096x512_S1x512_1_0_0_1_n_n.rhsIdx_val_of_single rfl i q

/-- Entry `(p, q)` of the row `l` times the block `r`: `∑ₑ l[p,e] · r[e,q]`, the score of cached column `q` of the block. -/
theorem mm_s (l : FVec Ideal S1x4096 .f32) (r : FVec Ideal S4096x512 .f32) (p : Fin 1) (q : Fin 512) :
    matmul dot_S1x4096_S4096x512_S1x512_1_0_0_1_n_n none l r (constant (F := Ideal) S1x512 .f32 0x00000000#32) (ix2 p q)
      = ∑ e : Fin 4096, l (ix2 p e) * r (ix2 e q) := by
  refine (Ideal.matmul_constant_zero_apply dot_S1x4096_S4096x512_S1x512_1_0_0_1_n_n none l r (ix2 p q)).trans ?_
  rw [← Equiv.sum_comp (contrEquiv1 dot_S1x4096_S4096x512_S1x512_1_0_0_1_n_n 4096 rfl rfl).symm]
  refine Finset.sum_congr rfl fun e _ => ?_
  have hk := contrEquiv1_symm_val dot_S1x4096_S4096x512_S1x512_1_0_0_1_n_n 4096 rfl rfl e
  have el : dot_S1x4096_S4096x512_S1x512_1_0_0_1_n_n.lhsIdx (ix2 p q) ((contrEquiv1 dot_S1x4096_S4096x512_S1x512_1_0_0_1_n_n 4096 rfl rfl).symm e) = ix2 p e :=
    funext fun ax => Fin.ext (by
      match ax with
      | ⟨0, _⟩ => exact ds_lhs_non _ _
      | ⟨1, _⟩ => exact (ds_lhs_con _ _).trans hk)
  have er : dot_S1x4096_S4096x512_S1x512_1_0_0_1_n_n.rhsIdx (ix2 p q) ((contrEquiv1 dot_S1x4096_S4096x512_S1x512_1_0_0_1_n_n 4096 rfl rfl).symm e) = ix2 e q :=
    funext fun ax => Fin.ext (by
      match ax with
      | ⟨0, _⟩ => exact (ds_rhs_con _ _).trans hk
      | ⟨1, _⟩ => exact ds_rhs_non _ _)
  rw [el, er]

/-! ### The weighted sum of region 1: a `4096 × 512` block of cached values against the `1 × 512` row of weights, both contracted along their second axis -/

theorem dz_lhs_non (i : S4096x1.Idx) (q : dot_S4096x512_S1x512_S4096x1_1_1_0_0_n_n.contr.Idx) :
    (dot_S4096x512_S1x512_S4096x1_1_1_0_0_n_n.lhsIdx i q 0).val = (i 0).val := by
  unfold DotDims.lhsIdx
  rw [dif_neg (show ¬(0 : Fin S4096x512.rank) ∈ dot_S4096x512_S1x512_S4096x1_1_1_0_0_n_n.lhsBatch by decide), dif_pos (show (0 : Fin S4096x512.rank) ∈ dot_S4096x512_S1x512_S4096x1_1_1_0_0_n_n.lhsNonContracting by decide)]
  rfl
theorem dz_lhs_con (i : S4096x1.Idx) (q : dot_S4096x512_S1x512_S4096x1_1_1_0_0_n_n.contr.Idx) :
    (dot_S4096x512_S1x512_S4096x1_1_1_0_0_n_n.lhsIdx i q 1).val = (q ⟨0, by decide⟩).val :=
  dot_S4096x512_S1x512_S4096x1_1_1_0_0_n_n.lhsIdx_val_of_single rfl i q
theorem dz_rhs_non (i : S4096x1.Idx) (q : dot_S4096x512_S1x512_S4096x1_1_1_0_0_n_n.contr.Idx) :
    (dot_S4096x512_S1x512_S4096x1_1_1_0_0_n_n.rhsIdx i q 0).val = (i 1).val := by
  unfold DotDims.rhsIdx
  rw [dif_neg (show ¬(0 : Fin S1x512.rank) ∈ dot_S4096x512_S1x512_S4096x1_1_1_0_0_n_n.rhsBatch by decide), dif_pos (show (0 : Fin S1x512.rank) ∈ dot_S4096x512_S1x512_S4096x1_1_1_0_0_n_n.rhsNonContracting by decide)]
  rfl
theorem dz_rhs_con (i : S4096x1.Idx) (q : dot_S4096x512_S1x512_S4096x1_1_1_0_0_n_n.contr.Idx) :
    (dot_S4096x512_S1x512_S4096x1_1_1_0_0_n_n.rhsIdx i q 1).val = (q ⟨0, by decide⟩).val :=
  dot_S4096x512_S1x512_S4096x1_1_1_0_0_n_n.rhsIdx_val_of_single rfl i q

/-- Entry `(p, q)` of the block `l` against the row `r`: `∑ₑ l[p,e] · r[q,e]`, row `p` of the block weighted column by column. -/
theorem mm_z (l : FVec Ideal S4096x512 .f32) (r : FVec Ideal S1x512 .f32) (p : Fin 4096) (q : Fin 1) :
    matmul dot_S4096x512_S1x512_S4096x1_1_1_0_0_n_n none l r (constant (F := Ideal) S4096x1 .f32 0x00000000#32) (ix2 p q)
      = ∑ e : Fin 512, l (ix2 p e) * r (ix2 q e) := by
  refine (Ideal.matmul_constant_zero_apply dot_S4096x512_S1x512_S4096x1_1_1_0_0_n_n none l r (ix2 p q)).trans ?_
  rw [← Equiv.sum_comp (contrEquiv1 dot_S4096x512_S1x512_S4096x1_1_1_0_0_n_n 512 rfl rfl).symm]
  refine Finset.sum_congr rfl fun e _ => ?_
  have hk := contrEquiv1_symm_val dot_S4096x512_S1x512_S4096x1_1_1_0_0_n_n 512 rfl rfl e
  have el : dot_S4096x512_S1x512_S4096x1_1_1_0_0_n_n.lhsIdx (ix2 p q) ((contrEquiv1 dot_S4096x512_S1x512_S4096x1_1_1_0_0_n_n 512 rfl rfl).symm e) = ix2 p e :=
    funext fun ax => Fin.ext (by
      match ax with
      | ⟨0, _⟩ => exact dz_lhs_non _ _
      | ⟨1, _⟩ => exact (dz_lhs_con _ _).trans hk)
  have er : dot_S4096x512_S1x512_S4096x1_1_1_0_0_n_n.rhsIdx (ix2 p q) ((contrEquiv1 dot_S4096x512_S1x512_S4096x1_1_1_0_0_n_n 512 rfl rfl).symm e) = ix2 q e :=
    funext fun ax => Fin.ext (by
      match ax with
      | ⟨0, _⟩ => exact dz_rhs_non _ _
      | ⟨1, _⟩ => exact (dz_rhs_con _ _).trans hk)
  rw [el, er]

/-! ### The score of the new key in region 1: the `1 × 4096` query row against the `4096 × 1` new key -/

theorem dn_lhs_non (i : S1x1.Idx) (q : dot_S1x4096_S4096x1_S1x1_1_0_0_1_n_n.contr.Idx) :
    (dot_S1x4096_S4096x1_S1x1_1_0_0_1_n_n.lhsIdx i q 0).val = (i 0).val := by
  unfold DotDims.lhsIdx
  rw [dif_neg (show ¬(0 : Fin S1x4096.rank) ∈ dot_S1x4096_S4096x1_S1x1_1_0_0_1_n_n.lhsBatch by decide), dif_pos (show (0 : Fin S1x4096.rank) ∈ dot_S1x4096_S4096x1_S1x1_1_0_0_1_n_n.lhsNonContracting by decide)]
  rfl
theorem dn_lhs_con (i : S1x1.Idx) (q : dot_S1x4096_S4096x1_S1x1_1_0_0_1_n_n.contr.Idx) :
    (dot_S1x4096_S4096x1_S1x1_1_0_0_1_n_n.lhsIdx i q 1).val = (q ⟨0, by decide⟩).val :=
  dot_S1x4096_S4096x1_S1x1_1_0_0_1_n_n.lhsIdx_val_of_single rfl i q
theorem dn_rhs_non (i : S1x1.Idx) (q : dot_S1x4096_S4096x1_S1x1_1_0_0_1_n_n.contr.Idx) :
    (dot_S1x4096_S4096x1_S1x1_1_0_0_1_n_n.rhsIdx i q 1).val = (i 1).val := by
  unfold DotDims.rhsIdx
  rw [dif_neg (show ¬(1 : Fin S4096x1.rank) ∈ dot_S1x4096_S4096x1_S1x1_1_0_0_1_n_n.rhsBatch by decide), dif_pos (show (1 : Fin S4096x1.rank) ∈ dot_S1x4096_S4096x1_S1x1_1_0_0_1_n_n.rhsNonContracting by decide)]
  rfl
theorem dn_rhs_con (i : S1x1.Idx) (q : dot_S1x4096_S4096x1_S1x1_1_0_0_1_n_n.contr.Idx) :
    (dot_S1x4096_S4096x1_S1x1_1_0_0_1_n_n.rhsIdx i q 0).val = (q ⟨0, by decide⟩).val :=
  dot_S1x4096_S4096x1_S1x1_1_0_0_1_n_n.rhsIdx_val_of_single rfl i q

/-- The one entry of the row `l` times the column `r`: `∑ₑ l[p,e] · r[e,q]`. -/
theorem mm_n (l : FVec Ideal S1x4096 .f32) (r : FVec Ideal S4096x1 .f32) (p : Fin 1) (q : Fin 1) :
    matmul dot_S1x4096_S4096x1_S1x1_1_0_0_1_n_n none l r (constant (F := Ideal) S1x1 .f32 0x00000000#32) (ix2 p q)
      = ∑ e : Fin 4096, l (ix2 p e) * r (ix2 e q) := by
  refine (Ideal.matmul_constant_zero_apply dot_S1x4096_S4096x1_S1x1_1_0_0_1_n_n none l r (ix2 p q)).trans ?_
  rw [← Equiv.sum_comp (contrEquiv1 dot_S1x4096_S4096x1_S1x1_1_0_0_1_n_n 4096 rfl rfl).symm]
  refine Finset.sum_congr rfl fun e _ => ?_
  have hk := contrEquiv1_symm_val dot_S1x4096_S4096x1_S1x1_1_0_0_1_n_n 4096 rfl rfl e
  have el : dot_S1x4096_S4096x1_S1x1_1_0_0_1_n_n.lhsIdx (ix2 p q) ((contrEquiv1 dot_S1x4096_S4096x1_S1x1_1_0_0_1_n_n 4096 rfl rfl).symm e) = ix2 p e :=
    funext fun ax => Fin.ext (by
      match ax with
      | ⟨0, _⟩ => exact dn_lhs_non _ _
      | ⟨1, _⟩ => exact (dn_lhs_con _ _).trans hk)
  have er : dot_S1x4096_S4096x1_S1x1_1_0_0_1_n_n.rhsIdx (ix2 p q) ((contrEquiv1 dot_S1x4096_S4096x1_S1x1_1_0_0_1_n_n 4096 rfl rfl).symm e) = ix2 e q :=
    funext fun ax => Fin.ext (by
      match ax with
      | ⟨0, _⟩ => exact (dn_rhs_con _ _).trans hk
      | ⟨1, _⟩ => exact dn_rhs_non _ _)
  rw [el, er]

/-! ## Region 0: the three projections of a block of 256 output entries -/

/-- Entry `j` of the query block: row `j` of the weight block against the embedding row. -/
theorem pay0_q (x : Vec Ideal S1x4096 .f32) (Wb : Vec Ideal S256x4096 .f32) (a : Fin 1) (j : Fin 256) :
    k0_pay1 x Wb (ix2 a j) = ∑ e : Fin 4096, x (ix2 0 e) * Wb (ix2 j e) := by
  obtain rfl : a = 0 := Subsingleton.elim _ _
  unfold k0_pay1
  exact mm_q x Wb 0 j

/-- Entry `j` of the new-key block: row `j` of the weight block against the embedding column (the cast of the
    column to its own shape changes nothing). -/
theorem pay0_k (Wb : Vec Ideal S256x4096 .f32) (xc : Vec Ideal S4096x1 .f32) (j : Fin 256) (b : Fin 1) :
    k0_pay2 Wb xc (ix2 j b) = ∑ e : Fin 4096, Wb (ix2 j e) * xc (ix2 e 0) := by
  obtain rfl : b = 0 := Subsingleton.elim _ _
  unfold k0_pay2
  simp only [shapeCast_self]
  exact mm_k Wb xc j 0

/-- Entry `j` of the new-value block: the same product with the value weights. -/
theorem pay0_v (Wb : Vec Ideal S256x4096 .f32) (xc : Vec Ideal S4096x1 .f32) (j : Fin 256) (b : Fin 1) :
    k0_pay3 Wb xc (ix2 j b) = ∑ e : Fin 4096, Wb (ix2 j e) * xc (ix2 e 0) := by
  obtain rfl : b = 0 := Subsingleton.elim _ _
  unfold k0_pay3
  simp only [shapeCast_self]
  exact mm_k Wb xc j 0

/-! ## Region 1: the accumulator's three stored values -/

/-- The first point's store: the zero column. -/
theorem pay1_zero (i : S4096x1.Idx) : k1_pay1 (F := Ideal) i = 0 := by
  unfold k1_pay1
  simp only [shapeCast_self]
  exact Ideal.ofBits_zero_f32

/-- Every point's store: the accumulator's entry `d` plus row `d` of the block of cached values, each of its 512
    columns weighted by the logistic function of that column's scaled score against the query. -/
theorem pay1_acc (q : Vec Ideal S1x4096 .f32) (Kb Vb : Vec Ideal S4096x512 .f32) (acc : Vec Ideal S4096x1 .f32) (d : Fin 4096) (b : Fin 1) :
    k1_pay2 q Kb Vb acc (ix2 d b) = acc (ix2 d b) + ∑ j : Fin 512, Vb (ix2 d j) * Cert.Spec.wgt (∑ d' : Fin 4096, q (ix2 0 d') * Kb (ix2 d' j)) := by
  obtain rfl : b = 0 := Subsingleton.elim _ _
  unfold k1_pay2
  simp only [shapeCast_self]
  refine (addf_apply _ _ _).trans (congrArg (acc (ix2 d 0) + ·) ?_)
  refine (mm_z Vb _ d 0).trans (Finset.sum_congr rfl fun j _ => congrArg (Vb (ix2 d j) * ·) ?_)
  -- the weight of column `j`: the logistic function of (score × 2⁻⁶), the score being the product's entry `(0, j)`
  refine (congrArg (fun s => Ideal.logistic (s * Ideal.ofBits .f32 0x3C800000#32)) (mm_s q Kb 0 j)).trans ?_
  rfl

/-- A `1 × 1` array spread over a column reads its one entry everywhere. -/
theorem bcast_1x1 {α : Type} (w : S1x1.Idx → α) (h : S1x1.Broadcasts S4096x1) (d : Fin 4096) (b : Fin 1) :
    broadcastTo S4096x1 w h (ix2 d b) = w (ix2 0 0) :=
  broadcastTo_apply w h (ix2 d b) (ix2 0 0) fun a => match a with
    | ⟨0, _⟩ => rfl
    | ⟨1, _⟩ => rfl

/-- The last point's extra store: the accumulator's entry `d` plus the new value's entry `d` weighted by the logistic
    function of the scaled score of the new key against the query. -/
theorem pay1_new (q : Vec Ideal S1x4096 .f32) (k acc v : Vec Ideal S4096x1 .f32) (d : Fin 4096) (b : Fin 1) :
    k1_pay3 q k acc v (ix2 d b) = acc (ix2 d b) + v (ix2 d b) * Cert.Spec.wgt (∑ d' : Fin 4096, q (ix2 0 d') * k (ix2 d' 0)) := by
  unfold k1_pay3
  simp only [shapeCast_self]
  refine (addf_apply _ _ _).trans (congrArg (acc (ix2 d b) + ·) ?_)
  refine (mulf_apply _ _ _).trans (congrArg (v (ix2 d b) * ·) ?_)
  refine (bcast_1x1 _ _ d b).trans ?_
  refine (congrArg (fun s => Ideal.logistic (s * Ideal.ofBits .f32 0x3C800000#32)) (mm_n q k 0 0)).trans ?_
  rfl

/-! ## Sixteen blocks of 512 cached columns are the 8192 cached columns -/

/-- A sum over the 8192 cached columns, taken block by block. -/
theorem sum_blocks {M : Type*} [AddCommMonoid M] (f : Fin 8192 → M) :
    ∑ t : Fin 16, ∑ j : Fin 512, f ⟨t.val * 512 + j.val, by omega⟩ = ∑ τ : Fin 8192, f τ :=
  Cert.LibSumBlocks.sum_blocks_general 16 512 8192 rfl f

end Cert.KernelIdeal.Pay

end
-- ==== Proof.KI.R0Value.lean ====
/-
  What the projection region leaves in its three output arrays after its sixteen points, entry by entry, over the
  extended reals: the query row `q[d] = ∑ₑ x[e] · W_query[d, e]` and the new key and value columns
  `k[d] = ∑ₑ W_key[d, e] · x[e]`, `v[d] = ∑ₑ W_value[d, e] · x[e]`. Each point writes one block of 256 entries, the
  block of one whole-array function; the sixteen blocks cover the 4096 entries.
-/
import proofs.«133496_j32933809226222_1_alg».proof.Proof.KI.R0Body
import proofs.«133496_j32933809226222_1_alg».proof.Proof.KI.Pay
import proofs.«133496_j32933809226222_1_alg».proof.Proof.Spec
import Idealize.ShloMosaic.Lib.ValueIdx
import Idealize.ShloMosaic.Lib.Pipeline.Value

set_option maxRecDepth 16384

noncomputable section

open scoped BigOperators

namespace Cert.KernelIdeal.R0

open Idealize.ShloMosaic Idealize.ShloMosaic.TcCoe Idealize.SL.Sem
open Idealize.ShloMosaic.Pipeline (Dat)
open Idealize.ShloMosaic.ValueIdx
open Cert.KernelIdeal Cert.KernelIdeal.Gen

-- what the core's buffers hold when the projection region is entered
variable (V : (c : Dev nD) → (b : Ref sig .tc) → Buf (Elt Ideal) ((c : Thread nD τ).loc b))

/-! ## Where each window's block sits at a point -/

/-- Every access of the body starts at the origin of its buffer. -/
theorem origin2 : (![0, 0] : Fin 2 → Nat) = fun _ => 0 := funext fun a => by fin_cases a <;> rfl

/-- The block indices at point `t`, read off the printed index maps over the sixteen points: the two copies of the
    embedding stay at block (0, 0); the three matrices and the key and value columns are at row block `t`; the query
    row is at column block `t`. -/
theorem blockIdx : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks as entries of the arrays -/

/-- The row block is the embedding row itself. -/
theorem blk_row (c : Dev nD) (t : Fin cfg0.N) (e : Fin 4096) :
    (iblk0 V c 0 t : Vec Ideal S1x4096 .f32) (ix2 0 e) = (V c main_arg0 : S1x4096.Idx → EReal) (ix2 0 e) := by
  obtain ⟨h0, h1, -⟩ := blockIdx t
  unfold iblk0
  rw [View.read_apply]
  show (V c main_arg0 : S1x4096.Idx → EReal) _ = _
  congr 1
  funext a
  apply Fin.ext
  match a with
  | ⟨0, _⟩ => show win0_0.index t (0 : Fin 2) * 1 + 1 * 0 = 0; rw [h0]
  | ⟨1, _⟩ => show win0_0.index t (1 : Fin 2) * 4096 + 1 * e.val = e.val; rw [h1]; omega

/-- The column block is the embedding column itself. -/
theorem blk_col (c : Dev nD) (t : Fin cfg0.N) (e : Fin 4096) :
    (iblk0 V c 1 t : Vec Ideal S4096x1 .f32) (ix2 e 0) = (V c main_v0 : S4096x1.Idx → EReal) (ix2 e 0) := by
  obtain ⟨-, -, h0, h1, -⟩ := blockIdx t
  unfold iblk0
  rw [View.read_apply]
  show (V c main_v0 : S4096x1.Idx → EReal) _ = _
  congr 1
  funext a
  apply Fin.ext
  match a with
  | ⟨0, _⟩ => show win0_1.index t (0 : Fin 2) * 4096 + 1 * e.val = e.val; rw [h0]; omega
  | ⟨1, _⟩ => show win0_1.index t (1 : Fin 2) * 1 + 1 * 0 = 0; rw [h1]

/-- Row `j` of the query matrix's block at point `t` is row `256 t + j` of the matrix. -/
theorem blk_Wq (c : Dev nD) (t : Fin cfg0.N) (j : Fin 256) (e : Fin 4096) (d : Fin 4096) (hd : d.val = 256 * t.val + j.val) :
    (iblk0 V c 2 t : Vec Ideal S256x4096 .f32) (ix2 j e) = (V c main_arg1 : S4096x4096.Idx → EReal) (ix2 d e) := by
  obtain ⟨-, -, -, -, h0, h1, -⟩ := blockIdx t
  unfold iblk0
  rw [View.read_apply]
  show (V c main_arg1 : S4096x4096.Idx → EReal) _ = _
  congr 1
  funext a
  apply Fin.ext
  match a with
  | ⟨0, _⟩ => show win0_2.index t (0 : Fin 2) * 256 + 1 * j.val = d.val; rw [h0, hd]; omega
  | ⟨1, _⟩ => show win0_2.index t (1 : Fin 2) * 4096 + 1 * e.val = e.val; rw [h1]; omega

/-- Row `j` of the key matrix's block at point `t` is row `256 t + j` of the matrix. -/
theorem blk_Wk (c : Dev nD) (t : Fin cfg0.N) (j : Fin 256) (e : Fin 4096) (d : Fin 4096) (hd : d.val = 256 * t.val + j.val) :
    (iblk0 V c 3 t : Vec Ideal S256x4096 .f32) (ix2 j e) = (V c main_arg2 : S4096x4096.Idx → EReal) (ix2 d e) := by
  obtain ⟨-, -, -, -, -, -, h0, h1, -⟩ := blockIdx t
  unfold iblk0
  rw [View.read_apply]
  show (V c main_arg2 : S4096x4096.Idx → EReal) _ = _
  congr 1
  funext a
  apply Fin.ext
  match a with
  | ⟨0, _⟩ => show win0_3.index t (0 : Fin 2) * 256 + 1 * j.val = d.val; rw [h0, hd]; omega
  | ⟨1, _⟩ => show win0_3.index t (1 : Fin 2) * 4096 + 1 * e.val = e.val; rw [h1]; omega

/-- Row `j` of the value matrix's block at point `t` is row `256 t + j` of the matrix. -/
theorem blk_Wv (c : Dev nD) (t : Fin cfg0.N) (j : Fin 256) (e : Fin 4096) (d : Fin 4096) (hd : d.val = 256 * t.val + j.val) :
    (iblk0 V c 4 t : Vec Ideal S256x4096 .f32) (ix2 j e) = (V c main_arg3 : S4096x4096.Idx → EReal) (ix2 d e) := by
  obtain ⟨-, -, -, -, -, -, -, -, h0, h1, -⟩ := blockIdx t
  unfold iblk0
  rw [View.read_apply]
  show (V c main_arg3 : S4096x4096.Idx → EReal) _ = _
  congr 1
  funext a
  apply Fin.ext
  match a with
  | ⟨0, _⟩ => show win0_4.index t (0 : Fin 2) * 256 + 1 * j.val = d.val; rw [h0, hd]; omega
  | ⟨1, _⟩ => show win0_4.index t (1 : Fin 2) * 4096 + 1 * e.val = e.val; rw [h1]; omega

/-! ## The three results as whole arrays -/

/-- Entry `d` of a row times a matrix's row `d`: `∑ₑ x[0,e] · W[d,e]`. -/
def rowdot (x : Cert.Spec.Row) (W : Cert.Spec.Mat) (d : Fin 4096) : EReal := ∑ e : Fin 4096, x (ix2 0 e) * W (ix2 d e)

/-- Entry `d` of a matrix applied to a column: `∑ₑ W[d,e] · xc[e,0]`. -/
def coldot (W : Cert.Spec.Mat) (xc : Cert.Spec.Col) (d : Fin 4096) : EReal := ∑ e : Fin 4096, W (ix2 d e) * xc (ix2 e 0)

/-- The query as a whole row: its entry in column `d` is the embedding contracted with row `d` of the matrix. -/
def rowOf (x : Cert.Spec.Row) (W : Cert.Spec.Mat) : S1x4096.Idx → EReal :=
  fun i => rowdot x W ⟨(i 1).val, (i 1).isLt⟩

/-- A matrix applied to the embedding column, as a whole column: its entry in row `d` is row `d` of the matrix
    contracted with the column. -/
def colOf (W : Cert.Spec.Mat) (xc : Cert.Spec.Col) : S4096x1.Idx → EReal :=
  fun i => coldot W xc ⟨(i 0).val, (i 0).isLt⟩

/-- One entry of the query block: if the block's embedding is the array's and its matrix rows are rows
    `256 t …` of the matrix, entry `j` of the block's product is entry `256 t + j` of the whole row. -/
theorem q_entry (x : Vec Ideal S1x4096 .f32) (Wb : Vec Ideal S256x4096 .f32) (X : Cert.Spec.Row) (W : Cert.Spec.Mat) (tv : Nat)
    (hx : ∀ e : Fin 4096, x (ix2 0 e) = X (ix2 0 e))
    (hW : ∀ (j : Fin 256) (e : Fin 4096) (d : Fin 4096), d.val = 256 * tv + j.val → Wb (ix2 j e) = W (ix2 d e))
    (y : S1x256.Idx) (i : S1x4096.Idx) (hi : (i 1).val = 256 * tv + (y 1).val) :
    k0_pay1 x Wb y = rowOf X W i := by
  obtain ⟨a, j, rfl⟩ : ∃ (a : Fin 1) (j : Fin 256), y = ix2 a j := ⟨y 0, y 1, eq_ix2 y⟩
  refine (Pay.pay0_q x Wb a j).trans ?_
  unfold rowOf rowdot
  exact Finset.sum_congr rfl fun e _ => by rw [hx e, hW j e ⟨(i 1).val, (i 1).isLt⟩ hi]

/-- One entry of the key block, in the same way. -/
theorem k_entry (Wb : Vec Ideal S256x4096 .f32) (xb : Vec Ideal S4096x1 .f32) (W : Cert.Spec.Mat) (X : Cert.Spec.Col) (tv : Nat)
    (hW : ∀ (j : Fin 256) (e : Fin 4096) (d : Fin 4096), d.val = 256 * tv + j.val → Wb (ix2 j e) = W (ix2 d e))
    (hx : ∀ e : Fin 4096, xb (ix2 e 0) = X (ix2 e 0))
    (y : S256x1.Idx) (i : S4096x1.Idx) (hi : (i 0).val = 256 * tv + (y 0).val) :
    k0_pay2 Wb xb y = colOf W X i := by
  obtain ⟨j, b, rfl⟩ : ∃ (j : Fin 256) (b : Fin 1), y = ix2 j b := ⟨y 0, y 1, eq_ix2 y⟩
  refine (Pay.pay0_k Wb xb j b).trans ?_
  unfold colOf coldot
  exact Finset.sum_congr rfl fun e _ => by rw [hx e, hW j e ⟨(i 0).val, (i 0).isLt⟩ hi]

/-- One entry of the value block, in the same way. -/
theorem v_entry (Wb : Vec Ideal S256x4096 .f32) (xb : Vec Ideal S4096x1 .f32) (W : Cert.Spec.Mat) (X : Cert.Spec.Col) (tv : Nat)
    (hW : ∀ (j : Fin 256) (e : Fin 4096) (d : Fin 4096), d.val = 256 * tv + j.val → Wb (ix2 j e) = W (ix2 d e))
    (hx : ∀ e : Fin 4096, xb (ix2 e 0) = X (ix2 e 0))
    (y : S256x1.Idx) (i : S4096x1.Idx) (hi : (i 0).val = 256 * tv + (y 0).val) :
    k0_pay3 Wb xb y = colOf W X i := by
  obtain ⟨j, b, rfl⟩ : ∃ (j : Fin 256) (b : Fin 1), y = ix2 j b := ⟨y 0, y 1, eq_ix2 y⟩
  refine (Pay.pay0_v Wb xb j b).trans ?_
  unfold colOf coldot
  exact Finset.sum_congr rfl fun e _ => by rw [hx e, hW j e ⟨(i 0).val, (i 0).isLt⟩ hi]

/-! ## What each point writes back is its block of the whole result -/

/-- Point `t` writes entries `256 t … 256 t + 255` of the query row. -/
theorem flushed5_eq (c : Dev nD) (t : Fin cfg0.N) :
    (dat0 V c).flushed 5 t = ((cfg0.win 5).blk t).view.read (Elt Ideal) (rowOf (V c main_arg0) (V c main_arg1)) := by
  show (cfg0.win 5).cut (grid0.coords t) ((dat0 V c).after 5 t) = _
  rw [after0_5]
  unfold out0_5
  rw [View.canon_unit_zero origin2]
  simp only [View.ld_unit_zero (S := S1x4096) origin2, View.ld_unit_zero (S := S256x4096) origin2]
  obtain ⟨-, -, -, -, -, -, -, -, -, -, h0, h1, -⟩ := blockIdx t
  funext y
  show k0_pay1 (iblk0 V c 0 t) (iblk0 V c 2 t) y = rowOf (V c main_arg0) (V c main_arg1) (((cfg0.win 5).blk t).view.emb y)
  refine q_entry (iblk0 V c 0 t) (iblk0 V c 2 t) (V c main_arg0) (V c main_arg1) t.val (blk_row V c t) (blk_Wq V c t) y (((cfg0.win 5).blk t).view.emb y) ?_
  show win0_5.index t (1 : Fin 2) * 256 + 1 * (y 1).val = 256 * t.val + (y 1).val
  rw [h1]; omega

/-- Point `t` writes entries `256 t … 256 t + 255` of the key column. -/
theorem flushed6_eq (c : Dev nD) (t : Fin cfg0.N) :
    (dat0 V c).flushed 6 t = ((cfg0.win 6).blk t).view.read (Elt Ideal) (colOf (V c main_arg2) (V c main_v0)) := by
  show (cfg0.win 6).cut (grid0.coords t) ((dat0 V c).after 6 t) = _
  rw [after0_6]
  unfold out0_6
  rw [View.canon_unit_zero origin2]
  simp only [View.ld_unit_zero (S := S4096x1) origin2, View.ld_unit_zero (S := S256x4096) origin2]
  obtain ⟨-, -, -, -, -, -, -, -, -, -, -, -, h0, h1, -⟩ := blockIdx t
  funext y
  show k0_pay2 (iblk0 V c 3 t) (iblk0 V c 1 t) y = colOf (V c main_arg2) (V c main_v0) (((cfg0.win 6).blk t).view.emb y)
  refine k_entry (iblk0 V c 3 t) (iblk0 V c 1 t) (V c main_arg2) (V c main_v0) t.val (blk_Wk V c t) (blk_col V c t) y (((cfg0.win 6).blk t).view.emb y) ?_
  show win0_6.index t (0 : Fin 2) * 256 + 1 * (y 0).val = 256 * t.val + (y 0).val
  rw [h0]; omega

/-- Point `t` writes entries `256 t … 256 t + 255` of the value column. -/
theorem flushed7_eq (c : Dev nD) (t : Fin cfg0.N) :
    (dat0 V c).flushed 7 t = ((cfg0.win 7).blk t).view.read (Elt Ideal) (colOf (V c main_arg3) (V c main_v0)) := by
  show (cfg0.win 7).cut (grid0.coords t) ((dat0 V c).after 7 t) = _
  rw [after0_7]
  unfold out0_7
  rw [View.canon_unit_zero origin2]
  simp only [View.ld_unit_zero (S := S4096x1) origin2, View.ld_unit_zero (S := S256x4096) origin2]
  obtain ⟨-, -, -, -, -, -, -, -, -, -, -, -, -, -, h0, h1⟩ := blockIdx t
  funext y
  show k0_pay3 (iblk0 V c 4 t) (iblk0 V c 1 t) y = colOf (V c main_arg3) (V c main_v0) (((cfg0.win 7).blk t).view.emb y)
  refine v_entry (iblk0 V c 4 t) (iblk0 V c 1 t) (V c main_arg3) (V c main_v0) t.val (blk_Wv V c t) (blk_col V c t) y (((cfg0.win 7).blk t).view.emb y) ?_
  show win0_7.index t (0 : Fin 2) * 256 + 1 * (y 0).val = 256 * t.val + (y 0).val
  rw [h0]; omega

/-! ## The sixteen blocks cover each result -/

/-- An entry of the query row is in point `t`'s block iff each coordinate is in the block's range. -/
theorem mem_blk5 (t : Fin cfg0.N) (i : S1x4096.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v1_0).slice (win0_5.rect t)).set ↔ _
  rw [View.set_slice_whole, Rect.mem_set_unit]
  exact Iff.rfl

theorem mem_blk6 (t : Fin cfg0.N) (i : S4096x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v1_1).slice (win0_6.rect t)).set ↔ _
  rw [View.set_slice_whole, Rect.mem_set_unit]
  exact Iff.rfl

theorem mem_blk7 (t : Fin cfg0.N) (i : S4096x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v1_2).slice (win0_7.rect t)).set ↔ _
  rw [View.set_slice_whole, Rect.mem_set_unit]
  exact Iff.rfl

/-- Column `d` of the query row is written at point `d / 256`. -/
theorem cover5 (i : S1x4096.Idx) : ∃ t : Fin cfg0.N, (cfg0.win 5).flush t = true ∧ i ∈ ((cfg0.win 5).blk t).view.set := by
  have hi0 : (i 0).val < 1 := (i 0).isLt
  have hi1 : (i 1).val < 4096 := (i 1).isLt
  have hN : cfg0.N = 16 := N_0
  obtain ⟨t, ht⟩ : ∃ t : Fin cfg0.N, t.val = (i 1).val / 256 := ⟨⟨(i 1).val / 256, by rw [hN]; omega⟩, rfl⟩
  obtain ⟨-, -, -, -, -, -, -, -, -, -, h0, h1, -⟩ := blockIdx t
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; rw [h0]; omega
  | ⟨1, _⟩ => show win0_5.index t (1 : Fin 2) * 256 ≤ (i 1).val ∧ (i 1).val < win0_5.index t (1 : Fin 2) * 256 + 256; rw [h1, ht]; omega

/-- Row `d` of the key column is written at point `d / 256`. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, -, -, h0, h1, -⟩ := blockIdx t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [h0, ht]; omega
  | ⟨1, _⟩ => show win0_6.index t (1 : Fin 2) * 1 ≤ (i 1).val ∧ (i 1).val < win0_6.index t (1 : Fin 2) * 1 + 1; rw [h1]; omega

/-- Row `d` of the value column is written at point `d / 256`. -/
theorem cover7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, -, -, -, -, h0, h1⟩ := blockIdx t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; rw [h0, ht]; omega
  | ⟨1, _⟩ => show win0_7.index t (1 : Fin 2) * 1 ≤ (i 1).val ∧ (i 1).val < win0_7.index t (1 : Fin 2) * 1 + 1; rw [h1]; omega

/-! ## The three arrays after the region, entry by entry -/

/-- The query array after the sixteen points: entry `d` is `∑ₑ x[e] · W_query[d, e]`. -/
theorem arr0_q (c : Dev nD) (a : Fin 1) (d : Fin 4096) :
    ((dat0 (F := Ideal) V c).arrAt 5 cfg0.N : S1x4096.Idx → EReal) (ix2 a d)
      = rowdot (V c main_arg0) (V c main_arg1) d :=
  congrFun ((dat0 V c).arrAt_eq_of_cover 5 (rowOf (V c main_arg0) (V c main_arg1)) (fun t _ => flushed5_eq V c t) cover5) (ix2 a d)

/-- The new key after the sixteen points: entry `d` is `∑ₑ W_key[d, e] · x[e]`. -/
theorem arr0_k (c : Dev nD) (d : Fin 4096) (b : Fin 1) :
    ((dat0 (F := Ideal) V c).arrAt 6 cfg0.N : S4096x1.Idx → EReal) (ix2 d b)
      = coldot (V c main_arg2) (V c main_v0) d :=
  congrFun ((dat0 V c).arrAt_eq_of_cover 6 (colOf (V c main_arg2) (V c main_v0)) (fun t _ => flushed6_eq V c t) cover6) (ix2 d b)

/-- The new value after the sixteen points: entry `d` is `∑ₑ W_value[d, e] · x[e]`. -/
theorem arr0_v (c : Dev nD) (d : Fin 4096) (b : Fin 1) :
    ((dat0 (F := Ideal) V c).arrAt 7 cfg0.N : S4096x1.Idx → EReal) (ix2 d b)
      = coldot (V c main_arg3) (V c main_v0) d :=
  congrFun ((dat0 V c).arrAt_eq_of_cover 7 (colOf (V c main_arg3) (V c main_v0)) (fun t _ => flushed7_eq V c t) cover7) (ix2 d b)

end Cert.KernelIdeal.R0

end
-- ==== Proof.LibFoldSum.lean ====
/-
  A running total that starts at zero and adds one term per step is, after `n` steps, the sum of the first `n` terms.
-/
import Mathlib.Algebra.BigOperators.Fin

open scoped BigOperators

namespace Cert.LibFoldSum

variable {M : Type*} [AddCommMonoid M] {N : ℕ}

/-- No term lies before position `0`. -/
theorem sum_lt_zero (g : Fin N → M) : ∑ t ∈ Finset.univ.filter (fun t : Fin N => t.val < 0), g t = 0 := by
  have e : Finset.univ.filter (fun t : Fin N => t.val < 0) = ∅ := by
    ext t
    simp only [Finset.mem_filter, Finset.mem_univ, true_and, Nat.not_lt_zero, Finset.notMem_empty]
  rw [e, Finset.sum_empty]

/-- The terms before position `n + 1` are the terms before position `n` and term `n`. -/
theorem sum_lt_succ (g : Fin N → M) (n : ℕ) (h : n < N) :
    ∑ t ∈ Finset.univ.filter (fun t : Fin N => t.val < n + 1), g t
      = (∑ t ∈ Finset.univ.filter (fun t : Fin N => t.val < n), g t) + g ⟨n, h⟩ := by
  have e : Finset.univ.filter (fun t : Fin N => t.val < n + 1)
      = insert ⟨n, h⟩ (Finset.univ.filter (fun t : Fin N => t.val < n)) := by
    ext t
    simp only [Finset.mem_filter, Finset.mem_univ, true_and, Finset.mem_insert, Fin.ext_iff]
    omega
  have hn : (⟨n, h⟩ : Fin N) ∉ Finset.univ.filter (fun t : Fin N => t.val < n) := by
    simp only [Finset.mem_filter, Finset.mem_univ, true_and]
    omega
  rw [e, Finset.sum_insert hn, add_comm]

/-- Every term lies before position `N` (or any later one). -/
theorem sum_lt_all (g : Fin N → M) (n : ℕ) (h : N ≤ n) :
    ∑ t ∈ Finset.univ.filter (fun t : Fin N => t.val < n), g t = ∑ t : Fin N, g t := by
  refine Finset.sum_congr (Finset.filter_true_of_mem fun t _ => ?_) fun _ _ => rfl
  have := t.isLt
  omega

/-- A sequence of running totals `s 0, s 1, …` over terms `g 0, …, g (N - 1)` that starts at zero and, for each of its
    first `K` steps, adds the step's term: total `n ≤ K` is the sum of the terms before position `n` — by induction
    on `n`, the terms never enumerated. -/
theorem fold_eq_sum_lt (s : ℕ → M) (g : Fin N → M) (h0 : s 0 = 0) (K : ℕ) (hK : K ≤ N)
    (hs : ∀ (n : ℕ) (h : n < K), s (n + 1) = s n + g ⟨n, Nat.lt_of_lt_of_le h hK⟩) :
    ∀ n : ℕ, n ≤ K → s n = ∑ t ∈ Finset.univ.filter (fun t : Fin N => t.val < n), g t
  | 0, _ => by rw [h0, sum_lt_zero]
  | n + 1, h => by
    rw [hs n h, fold_eq_sum_lt s g h0 K hK hs n (Nat.le_of_succ_le h), sum_lt_succ]

end Cert.LibFoldSum
-- ==== Proof.KI.R1Value.lean ====
/-
  What the attention region leaves in its output array, at the ideal instance: entry `d` is the value cache's row `d`
  weighted column by column by the logistic function of the scaled scores of the query against the key cache, plus the
  new value's entry weighted by the score of the query against the new key.

  The region's sixteen points each add one block of 512 cached columns to an accumulator that starts at zero; the last
  point also adds the new column's term and hands the accumulator to the output. Read at one entry, the accumulator
  after `n` points is the sum of the first `n` blocks' terms (an induction on `n`), a block's entry is the cache's
  entry at column `512 t + j`, and sixteen blocks of 512 columns are the 8192 columns.
-/
import proofs.«133496_j32933809226222_1_alg».proof.Proof.Gen.KernelIdeal.Launch
import proofs.«133496_j32933809226222_1_alg».proof.Proof.Gen.KernelIdeal.Skeleton
import proofs.«133496_j32933809226222_1_alg».proof.Proof.Gen.KernelIdeal.Points
import proofs.«133496_j32933809226222_1_alg».proof.Proof.KI.Pay
import proofs.«133496_j32933809226222_1_alg».proof.Proof.KI.R1Body
import proofs.«133496_j32933809226222_1_alg».proof.Proof.Spec
import proofs.«133496_j32933809226222_1_alg».proof.Proof.LibFoldSum
import proofs.«133496_j32933809226222_1_alg».proof.Proof.LibSumBlocks
import Idealize.ShloMosaic.Lib.Pipeline.Value
import Idealize.ShloMosaic.Lib.Tactic

noncomputable section

open scoped BigOperators

namespace Cert.KernelIdeal.R1Value

open Idealize.ShloMosaic Idealize.ShloMosaic.TcCoe Idealize.SL.Sem Idealize.ShloMosaic.ValueIdx
open Idealize.ShloMosaic.Rounds
open Idealize.ShloMosaic.Pipeline (Dat Cfg Window)
open Cert.KernelIdeal Cert.KernelIdeal.Gen Cert.KernelIdeal.R1

/-! ## The windows' blocks, entry by entry -/

section Blocks
variable {F : FTy → Type} [FloatOps F]
variable (V : (c : Dev nD) → (b : Ref sig .tc) → Buf (Elt F) ((c : Thread nD τ).loc b))

/-- Window 0's block index is zero on both axes at every point. -/
theorem idx1_0 : ∀ t : Fin cfg1.N, win1_0.index t 0 = 0 ∧ win1_0.index t 1 = 0 :=
  (by decide +kernel : ∀ t : Fin grid1.N, win1_0.index t 0 = 0 ∧ win1_0.index t 1 = 0)

/-- So its block, at every point, is the whole array (the query row). -/
theorem iblk1_0_apply (c : Dev nD) (t : Fin cfg1.N) (x : S1x4096.Idx) :
    (iblk1 V c 0 t : Vec F S1x4096 .f32) x = (V c main_v1_0 : S1x4096.Idx → Elt F .f32) x := by
  have hi := idx1_0 t
  unfold iblk1
  rw [View.read_apply]
  show V c main_v1_0 _ = V c main_v1_0 _
  congr 1
  funext a
  apply Fin.ext
  match a with
  | ⟨0, _⟩ => show win1_0.index t 0 * 1 + 1 * (x 0).val = (x 0).val; rw [hi.1]; omega
  | ⟨1, _⟩ => show win1_0.index t 1 * 4096 + 1 * (x 1).val = (x 1).val; rw [hi.2]; omega

/-- Window 1's block index is zero on both axes at every point. -/
theorem idx1_1 : ∀ t : Fin cfg1.N, win1_1.index t 0 = 0 ∧ win1_1.index t 1 = 0 :=
  (by decide +kernel : ∀ t : Fin grid1.N, win1_1.index t 0 = 0 ∧ win1_1.index t 1 = 0)

/-- So its block, at every point, is the whole array (the new key column). -/
theorem iblk1_1_apply (c : Dev nD) (t : Fin cfg1.N) (x : S4096x1.Idx) :
    (iblk1 V c 1 t : Vec F S4096x1 .f32) x = (V c main_v1_1 : S4096x1.Idx → Elt F .f32) x := by
  have hi := idx1_1 t
  unfold iblk1
  rw [View.read_apply]
  show V c main_v1_1 _ = V c main_v1_1 _
  congr 1
  funext a
  apply Fin.ext
  match a with
  | ⟨0, _⟩ => show win1_1.index t 0 * 4096 + 1 * (x 0).val = (x 0).val; rw [hi.1]; omega
  | ⟨1, _⟩ => show win1_1.index t 1 * 1 + 1 * (x 1).val = (x 1).val; rw [hi.2]; omega

/-- Window 2's block index is zero on both axes at every point. -/
theorem idx1_2 : ∀ t : Fin cfg1.N, win1_2.index t 0 = 0 ∧ win1_2.index t 1 = 0 :=
  (by decide +kernel : ∀ t : Fin grid1.N, win1_2.index t 0 = 0 ∧ win1_2.index t 1 = 0)

/-- So its block, at every point, is the whole array (the new value column). -/
theorem iblk1_2_apply (c : Dev nD) (t : Fin cfg1.N) (x : S4096x1.Idx) :
    (iblk1 V c 2 t : Vec F S4096x1 .f32) x = (V c main_v1_2 : S4096x1.Idx → Elt F .f32) x := by
  have hi := idx1_2 t
  unfold iblk1
  rw [View.read_apply]
  show V c main_v1_2 _ = V c main_v1_2 _
  congr 1
  funext a
  apply Fin.ext
  match a with
  | ⟨0, _⟩ => show win1_2.index t 0 * 4096 + 1 * (x 0).val = (x 0).val; rw [hi.1]; omega
  | ⟨1, _⟩ => show win1_2.index t 1 * 1 + 1 * (x 1).val = (x 1).val; rw [hi.2]; omega

/-- Window 3's block index at point `t` is `(0, t)`. -/
theorem idx1_3 : ∀ t : Fin cfg1.N, win1_3.index t 0 = 0 ∧ win1_3.index t 1 = t.val :=
  (by decide +kernel : ∀ t : Fin grid1.N, win1_3.index t 0 = 0 ∧ win1_3.index t 1 = t.val)

/-- So entry `(r, j)` of its block at point `t` is entry `(r, 512 t + j)` of the key cache: a block's element sits at the
    block index times the block's extent plus its own coordinate. -/
theorem iblk1_3_apply (c : Dev nD) (t : Fin cfg1.N) (x : S4096x512.Idx) (k : S4096x8192.Idx)
    (hk0 : (k 0).val = (x 0).val) (hk1 : (k 1).val = t.val * 512 + (x 1).val) :
    (iblk1 V c 3 t : Vec F S4096x512 .f32) x = (V c main_arg4 : S4096x8192.Idx → Elt F .f32) k := by
  have hi := idx1_3 t
  unfold iblk1
  rw [View.read_apply]
  show V c main_arg4 _ = V c main_arg4 _
  congr 1
  funext a
  apply Fin.ext
  match a with
  | ⟨0, _⟩ => show win1_3.index t 0 * 4096 + 1 * (x 0).val = (k 0).val; rw [hi.1, hk0]; omega
  | ⟨1, _⟩ => show win1_3.index t 1 * 512 + 1 * (x 1).val = (k 1).val; rw [hi.2, hk1]; omega

/-- Window 4's block index at point `t` is `(0, t)`. -/
theorem idx1_4 : ∀ t : Fin cfg1.N, win1_4.index t 0 = 0 ∧ win1_4.index t 1 = t.val :=
  (by decide +kernel : ∀ t : Fin grid1.N, win1_4.index t 0 = 0 ∧ win1_4.index t 1 = t.val)

/-- So entry `(r, j)` of its block at point `t` is entry `(r, 512 t + j)` of the value cache: a block's element sits at the
    block index times the block's extent plus its own coordinate. -/
theorem iblk1_4_apply (c : Dev nD) (t : Fin cfg1.N) (x : S4096x512.Idx) (k : S4096x8192.Idx)
    (hk0 : (k 0).val = (x 0).val) (hk1 : (k 1).val = t.val * 512 + (x 1).val) :
    (iblk1 V c 4 t : Vec F S4096x512 .f32) x = (V c main_arg5 : S4096x8192.Idx → Elt F .f32) k := by
  have hi := idx1_4 t
  unfold iblk1
  rw [View.read_apply]
  show V c main_arg5 _ = V c main_arg5 _
  congr 1
  funext a
  apply Fin.ext
  match a with
  | ⟨0, _⟩ => show win1_4.index t 0 * 4096 + 1 * (x 0).val = (k 0).val; rw [hi.1, hk0]; omega
  | ⟨1, _⟩ => show win1_4.index t 1 * 512 + 1 * (x 1).val = (k 1).val; rw [hi.2, hk1]; omega

end Blocks

/-! ## The output array -/

section Output
variable {F : FTy → Type} [FloatOps F]

/-- The output window's one block is the whole array and only the last point writes it back, so after the region the
    array holds what the output's buffer holds after the last point. -/
theorem arr5_of_after (c : Dev nD) (dat : Dat τ (Elt F) Unit ℕ (UR sig nD τ) ℕ cfg1 c)
    (R : Buf (Elt F) ((c : Thread nD τ).loc main_v2)) (hafter : dat.after 5 t1_15 = R) :
    dat.arrAt 5 cfg1.N = R :=
  dat.arrAt_eq_of_cover 5 R (fun t hf => by
      have hN : cfg1.N = 16 := N_1
      have h15 : t.val = 15 := by have := (flush1_5 t).mp hf; have := t.isLt; omega
      obtain rfl : t = t1_15 := Fin.ext h15
      show (cfg1.win 5).cut (grid1.coords t1_15) (dat.after 5 t1_15) = _
      rw [hafter]
      have hz' : (fun a => win1_5.index t1_15 a * main_v2.ty.shape.size a) = fun _ => 0 := funext fun a => by fin_cases a <;> decide
      exact (Memref.read_access_unit_zero (Elt F) main_v2 hz' (fun a => by rw [congrFun hz' a]; simp) R).symm)
    fun i => ⟨t1_15, (flush1_5 t1_15).mpr rfl, by
      show i ∈ ((View.whole main_v2).slice (win1_5.rect t1_15)).set
      rw [View.set_slice_whole, Rect.mem_set_unit]
      intro a
      have h0 : (i 0 : Nat) < 4096 := (i 0).isLt
      have h1 : (i 1 : Nat) < 1 := (i 1).isLt
      match a with
      | ⟨0, _⟩ => show win1_5.index t1_15 0 * win1_5.size 0 ≤ (i 0 : Nat) ∧ (i 0 : Nat) < win1_5.index t1_15 0 * win1_5.size 0 + win1_5.xsize (grid1.coords t1_15) 0
                  rw [show win1_5.index t1_15 0 * win1_5.size 0 = 0 from by decide +kernel, show win1_5.xsize (grid1.coords t1_15) 0 = 4096 from by decide +kernel]; omega
      | ⟨1, _⟩ => show win1_5.index t1_15 1 * win1_5.size 1 ≤ (i 1 : Nat) ∧ (i 1 : Nat) < win1_5.index t1_15 1 * win1_5.size 1 + win1_5.xsize (grid1.coords t1_15) 1
                  rw [show win1_5.index t1_15 1 * win1_5.size 1 = 0 from by decide +kernel, show win1_5.xsize (grid1.coords t1_15) 1 = 1 from by decide +kernel]; omega⟩

end Output

/-! ## The accumulator, entry by entry -/

section Value
variable (V : (c : Dev nD) → (b : Ref sig .tc) → Buf (Elt Ideal) ((c : Thread nD τ).loc b))

/-- The term of cached column `τ` in entry `d` of the result: the value cache's entry `(d, τ)` weighted by the
    logistic function of the scaled score of the query against column `τ` of the key cache. -/
def colTerm (q : Fin 4096 → EReal) (Kc Vc : Cert.Spec.Cache) (d : Fin 4096) (τ : Fin 8192) : EReal :=
  Vc (ix2 d τ) * Cert.Spec.wgt (∑ d' : Fin 4096, q d' * Kc (ix2 d' τ))

/-- The terms of the 512 columns of block `t`, summed. -/
def blockTerm (q : Fin 4096 → EReal) (Kc Vc : Cert.Spec.Cache) (d : Fin 4096) (t : Fin cfg1.N) : EReal :=
  ∑ j : Fin 512, colTerm q Kc Vc d ⟨t.val * 512 + j.val, Cert.LibSumBlocks.block_pos_lt (show cfg1.N * 512 = 8192 by rw [show cfg1.N = 16 from N_1]) t j⟩

/-- One point's addition: the stored value's entry `d` is the accumulator's entry plus the block's terms — the
    payload's sums, with each block entry read as the cache's entry. -/
theorem step_value (c : Dev nD) (t : Fin cfg1.N) (acc : Vec Ideal S4096x1 .f32) (d : Fin 4096) (b : Fin 1) :
    k1_pay2 (iblk1 V c 0 t) (iblk1 V c 3 t) (iblk1 V c 4 t) acc (ix2 d b)
      = acc (ix2 d b) + blockTerm (fun d' => (V c main_v1_0 : S1x4096.Idx → EReal) (ix2 0 d')) (V c main_arg4) (V c main_arg5) d t := by
  have hN : cfg1.N * 512 = 8192 := by rw [show cfg1.N = 16 from N_1]
  refine (Pay.pay1_acc _ _ _ acc d b).trans (congrArg (acc (ix2 d b) + ·) (Finset.sum_congr rfl fun j _ => ?_))
  unfold colTerm
  rw [iblk1_4_apply V c t (ix2 d j) (ix2 d ⟨t.val * 512 + j.val, Cert.LibSumBlocks.block_pos_lt hN t j⟩) rfl rfl]
  refine congrArg (fun z => _ * Cert.Spec.wgt z) (Finset.sum_congr rfl fun d' _ => ?_)
  rw [iblk1_0_apply V c t (ix2 0 d'), iblk1_3_apply V c t (ix2 d' j) (ix2 d' ⟨t.val * 512 + j.val, Cert.LibSumBlocks.block_pos_lt hN t j⟩) rfl rfl]

/-- After `n ≤ 15` points the accumulator's entry `d` is the sum of the first `n` blocks' terms: it starts at zero and
    each of the first fifteen points adds its block's. -/
theorem acc_partial (c : Dev nD) (a : ℕ → Vec Ideal S4096x1 .f32) (azero : a 0 = k1_pay1 (F := Ideal))
    (asucc : ∀ t : Fin cfg1.N, t.val ≠ 15 → a (t.val + 1) = k1_pay2 (iblk1 V c 0 t) (iblk1 V c 3 t) (iblk1 V c 4 t) (a t.val))
    (d : Fin 4096) (b : Fin 1) (n : ℕ) (hn : n ≤ 15) :
    a n (ix2 d b) = ∑ t ∈ Finset.univ.filter (fun t : Fin cfg1.N => t.val < n),
      blockTerm (fun d' => (V c main_v1_0 : S1x4096.Idx → EReal) (ix2 0 d')) (V c main_arg4) (V c main_arg5) d t := by
  have hN : cfg1.N = 16 := N_1
  refine Cert.LibFoldSum.fold_eq_sum_lt (fun n => a n (ix2 d b)) _ ?_ 15 (by omega) (fun m hm => ?_) n hn
  · show a 0 (ix2 d b) = 0
    rw [azero, Pay.pay1_zero]
  · show a (m + 1) (ix2 d b) = a m (ix2 d b) + _
    rw [asucc ⟨m, by omega⟩ (by show m ≠ 15; omega)]
    exact step_value V c ⟨m, by omega⟩ (a m) d b

/-- The array the region leaves in its output, from any accumulator sequence of the region's shape (zero, then one block
    per point, the last point adding the new column's term as well) and any proof data whose output buffer after the
    last point is the sequence's last value. -/
theorem arr_z_of (c : Dev nD) (dat : Dat τ (Elt Ideal) Unit ℕ (UR sig nD τ) ℕ cfg1 c) (a : ℕ → Vec Ideal S4096x1 .f32)
    (azero : a 0 = k1_pay1 (F := Ideal))
    (asucc : ∀ t : Fin cfg1.N, t.val ≠ 15 → a (t.val + 1) = k1_pay2 (iblk1 V c 0 t) (iblk1 V c 3 t) (iblk1 V c 4 t) (a t.val))
    (alast : ∀ t : Fin cfg1.N, t.val = 15 → a (t.val + 1) = k1_pay3 (iblk1 V c 0 t) (iblk1 V c 1 t)
      (k1_pay2 (iblk1 V c 0 t) (iblk1 V c 3 t) (iblk1 V c 4 t) (a t.val)) (iblk1 V c 2 t))
    (hafter : dat.after 5 t1_15 = a 16) (d : Fin 4096) (b : Fin 1) :
    (dat.arrAt 5 cfg1.N : S4096x1.Idx → EReal) (ix2 d b)
      = Cert.Spec.attn (fun d' => (V c main_v1_0 : S1x4096.Idx → EReal) (ix2 0 d')) (fun d' => (V c main_v1_1 : S4096x1.Idx → EReal) (ix2 d' 0))
          (fun d' => (V c main_v1_2 : S4096x1.Idx → EReal) (ix2 d' 0)) (V c main_arg4) (V c main_arg5) d := by
  obtain rfl : b = 0 := Subsingleton.elim _ _
  have hN : cfg1.N = 16 := N_1
  rw [arr5_of_after c dat _ hafter]
  have e16 : a 16 = _ := alast t1_15 rfl
  rw [e16]
  refine (Pay.pay1_new _ _ _ _ d 0).trans ?_
  unfold Cert.Spec.attn
  rw [step_value V c t1_15 (a t1_15.val) d 0, iblk1_2_apply V c t1_15 (ix2 d 0)]
  refine congrArg₂ (· + _ * Cert.Spec.wgt ·) ?_ (Finset.sum_congr rfl fun d' _ => ?_)
  · -- fifteen blocks and the sixteenth are the sixteen, and sixteen blocks of 512 columns are the 8192 columns
    show a 15 (ix2 d 0) + _ = _
    rw [acc_partial V c a azero asucc d 0 15 (Nat.le_refl _)]
    refine ((Cert.LibFoldSum.sum_lt_succ (blockTerm (fun d' => (V c main_v1_0 : S1x4096.Idx → EReal) (ix2 0 d')) (V c main_arg4) (V c main_arg5) d) 15 t1_15.isLt).symm.trans ?_)
    rw [Cert.LibFoldSum.sum_lt_all _ 16 (by omega)]
    exact Cert.LibSumBlocks.sum_blocks_general cfg1.N 512 8192 (by rw [hN]) (colTerm (fun d' => (V c main_v1_0 : S1x4096.Idx → EReal) (ix2 0 d')) (V c main_arg4) (V c main_arg5) d)
  · rw [iblk1_0_apply V c t1_15 (ix2 0 d'), iblk1_1_apply V c t1_15 (ix2 d' 0)]

end Value

end Cert.KernelIdeal.R1Value

namespace Cert.KernelIdeal.R1

open Idealize.ShloMosaic Idealize.ShloMosaic.TcCoe Idealize.SL.Sem Idealize.ShloMosaic.ValueIdx
open Idealize.ShloMosaic.Rounds
open Idealize.ShloMosaic.Pipeline (Dat Cfg Window)
open Cert.KernelIdeal Cert.KernelIdeal.Gen

/-- What the attention region leaves in its output array, from the buffers it finds on entry: entry `d` is the
    attention result of the query row, the new key and new value columns and the two caches as the region finds them —
    the accumulation's recursion is of the shape `R1Value.arr_z_of` reads. -/
theorem arr1_z (V : (c : Dev nD) → (b : Ref sig .tc) → Buf (Elt Ideal) ((c : Thread nD τ).loc b)) (c : Dev nD) (d : Fin 4096) (b : Fin 1) :
    ((Cert.KernelIdeal.R1.dat1 (F := Ideal) V c).arrAt 5 cfg1.N : S4096x1.Idx → EReal) (ix2 d b)
      = Cert.Spec.attn (fun d' => (V c main_v1_0 : S1x4096.Idx → EReal) (ix2 0 d')) (fun d' => (V c main_v1_1 : S4096x1.Idx → EReal) (ix2 d' 0))
          (fun d' => (V c main_v1_2 : S4096x1.Idx → EReal) (ix2 d' 0)) (V c main_arg4) (V c main_arg5) d :=
  Cert.KernelIdeal.R1Value.arr_z_of V c (dat1 V c) (acc1 V c) (acc1_zero V c) (acc1_succ V c) (acc1_last V c) (after1_5_last V c) d b

end Cert.KernelIdeal.R1

end
-- ==== Proof.KI.Result.lean ====
/-
  The value of the kernel program's result over the extended reals.

  The fold of the run gives the result buffer as what the attention region's last write-back leaves; that region
  reads the query, the new key and the new value as the projection region left them, and the two caches as
  launched; the projection region reads the embedding and its transpose and the three matrices as launched.
  Composing the three readings, entry `d` of the result is the attention step of the six arguments at `d`.
  Two small laws join the kernel's arrangement to the specification's: a product commutes (the query is computed
  as row · matrixᵀ, the specification writes matrix · row), and the transposed embedding's entry `(e, 0)` is the
  embedding's entry `(0, e)`.
-/
import proofs.«133496_j32933809226222_1_alg».proof.Proof.KI.Run
import proofs.«133496_j32933809226222_1_alg».proof.Proof.KI.R0Value
import proofs.«133496_j32933809226222_1_alg».proof.Proof.KI.R1Value
import proofs.«133496_j32933809226222_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Result
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.R0 Cert.KernelIdeal.R1 Cert.KernelIdeal.Run Idealize.ShloMosaic.ValueIdx
open scoped BigOperators

/-- A row times a matrix's row is that row of the matrix applied to the row: the products commute. -/
theorem rowdot_eq_proj (x : Cert.Spec.Row) (W : Cert.Spec.Mat) (d : Fin 4096) : rowdot x W d = Cert.Spec.proj W x d := by
  unfold rowdot Cert.Spec.proj
  exact Finset.sum_congr rfl fun e _ => mul_comm _ _

/-- A matrix applied to a column that is a row transposed is the matrix applied to the row. -/
theorem coldot_eq_proj (W : Cert.Spec.Mat) (xc : Cert.Spec.Col) (x : Cert.Spec.Row) (hx : ∀ e : Fin 4096, xc (ix2 e 0) = x (ix2 0 e))
    (d : Fin 4096) : coldot W xc d = Cert.Spec.proj W x d := by
  unfold coldot Cert.Spec.proj
  exact Finset.sum_congr rfl fun e _ => by rw [hx e]

variable (m : (ℓ : Loc nD τ sig) → Buf (Elt Ideal) ℓ) (ρ : Dev nD → PrngReg)

/-! ## What region 0 finds: the arguments as launched, and the embedding transposed -/

theorem V1_arg (c : Dev nD) (b : Ref sig .tc) (hb : b ≠ main_v0) : V1 m ρ c b = m ((c : Thread nD τ).loc b) :=
  W1_of_ne m ρ c b hb

/-- Entry `(e, 0)` of the transposed embedding is entry `(0, e)` of the embedding. -/
theorem V1_xT (c : Dev nD) (e : Fin 4096) :
    (V1 m ρ c main_v0 : S4096x1.Idx → EReal) (ix2 e 0) = (m ((c : Thread nD τ).loc main_arg0) : S1x4096.Idx → EReal) (ix2 0 e) := by
  have e1 : (V1 m ρ c main_v0 : S4096x1.Idx → EReal)
      = transpose S4096x1 [1, 0] (m ((c : Thread nD τ).loc main_arg0)) transposes_S1x4096_S4096x1_1_0 := by
    dsimp only [V1, W1, W0, hostOps0]; after_results <;> rfl
  rw [e1]
  exact transpose_apply [1, 0] _ transposes_S1x4096_S4096x1_1_0 (ix2 e 0) (ix2 0 e) (fun b => match b with
    | ⟨0, _⟩ => rfl
    | ⟨1, _⟩ => rfl)

/-! ## What region 1 finds: the query, the new key and the new value as region 0 left them, the caches as launched -/

theorem V2_q (c : Dev nD) (d' : Fin 4096) :
    (V2 m ρ c main_v1_0 : S1x4096.Idx → EReal) (ix2 0 d')
      = Cert.Spec.proj (m ((c : Thread nD τ).loc main_arg1)) (m ((c : Thread nD τ).loc main_arg0)) d' := by
  have h : V2 m ρ c main_v1_0 = (dat0 (V1 m ρ) c).arrAt 5 cfg0.N := W2_arr m ρ c 5
  rw [h, arr0_q (V1 m ρ) c 0 d']
  rw [V1_arg m ρ c main_arg0 (by decide), V1_arg m ρ c main_arg1 (by decide)]
  exact rowdot_eq_proj _ _ d'

theorem V2_k (c : Dev nD) (d' : Fin 4096) :
    (V2 m ρ c main_v1_1 : S4096x1.Idx → EReal) (ix2 d' 0)
      = Cert.Spec.proj (m ((c : Thread nD τ).loc main_arg2)) (m ((c : Thread nD τ).loc main_arg0)) d' := by
  have h : V2 m ρ c main_v1_1 = (dat0 (V1 m ρ) c).arrAt 6 cfg0.N := W2_arr m ρ c 6
  rw [h, arr0_k (V1 m ρ) c d' 0]
  rw [V1_arg m ρ c main_arg2 (by decide)]
  exact coldot_eq_proj _ _ _ (V1_xT m ρ c) d'

theorem V2_v (c : Dev nD) (d' : Fin 4096) :
    (V2 m ρ c main_v1_2 : S4096x1.Idx → EReal) (ix2 d' 0)
      = Cert.Spec.proj (m ((c : Thread nD τ).loc main_arg3)) (m ((c : Thread nD τ).loc main_arg0)) d' := by
  have h : V2 m ρ c main_v1_2 = (dat0 (V1 m ρ) c).arrAt 7 cfg0.N := W2_arr m ρ c 7
  rw [h, arr0_v (V1 m ρ) c d' 0]
  rw [V1_arg m ρ c main_arg3 (by decide)]
  exact coldot_eq_proj _ _ _ (V1_xT m ρ c) d'

theorem V2_cache (c : Dev nD) (b : Ref sig .tc) (h0 : ∀ w, Pipeline.arrRef spec0 w ≠ b) (hb : b ≠ main_v0) :
    V2 m ρ c b = m ((c : Thread nD τ).loc b) :=
  (W2_of_ne m ρ c b h0).trans (W1_of_ne m ρ c b hb)

/-! ## The result -/

/-- Entry `d` of the result buffer after the run is entry `d` of the attention step of the six arguments. -/
theorem result (c : Dev nD) (d : Fin 4096) (b : Fin 1) :
    (W3 m ρ c (Proc.devRef .tc main_v2) : S4096x1.Idx → EReal) (ix2 d b)
      = Cert.Spec.step (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) d := by
  have h : W3 m ρ c (Proc.devRef .tc main_v2) = (dat1 (V2 m ρ) c).arrAt 5 cfg1.N := W3_arr m ρ c 5
  rw [h, arr1_z (V2 m ρ) c d b]
  unfold Cert.Spec.step
  rw [show (fun d' => (V2 m ρ c main_v1_0 : S1x4096.Idx → EReal) (ix2 0 d')) = _ from funext (V2_q m ρ c),
    show (fun d' => (V2 m ρ c main_v1_1 : S4096x1.Idx → EReal) (ix2 d' 0)) = _ from funext (V2_k m ρ c),
    show (fun d' => (V2 m ρ c main_v1_2 : S4096x1.Idx → EReal) (ix2 d' 0)) = _ from funext (V2_v m ρ c),
    V2_cache m ρ c main_arg4 (by decide) (by decide), V2_cache m ρ c main_arg5 (by decide) (by decide)]

end Cert.KernelIdeal.Result

end
-- ==== Proof.lean ====
/-
  One decoding step of sigmoid-scored attention over a growing key/value cache: a two-region kernel against its
  plain reference, equal over the extended reals.

  The kernel first forms the query (as a row), the new key and the new value (as columns) from the embedding and
  three projection matrices, sixteen blocks of 256 output entries at a time; then it walks the two caches in
  sixteen blocks of 512 columns, keeping in a scratch column the running sum of each value block applied to the
  logistic weights of the query's scores against the key block (scores scaled by 2⁻⁶ = 1/√4096), adds at the last
  block the new value weighted by the score against the new key, and writes the column out. The reference appends
  the new key and value to the caches as a 8193rd column and computes the same weights with a division by √4096 and
  the logistic function spelt as 1 / (1 + e⁻ˢ).

  Both are the specification `Cert.Spec.step` at every entry. Each program's frame — it runs to the end, faults
  nowhere, leaves its arguments unchanged — is the run of its segments (the kernel's: a host transpose and the two
  regions; the reference's: a straight line of host operations). The idealization rewrote nothing.
-/
import proofs.«133496_j32933809226222_1_alg».proof.Defs
import proofs.«133496_j32933809226222_1_alg».proof.Proof.Gen.Kernel
import proofs.«133496_j32933809226222_1_alg».proof.Proof.Gen.KernelIdeal
import proofs.«133496_j32933809226222_1_alg».proof.Proof.Gen.ReferenceIdeal
import proofs.«133496_j32933809226222_1_alg».proof.Proof.Gen.Pre_finite_inputs
import proofs.«133496_j32933809226222_1_alg».proof.Proof.Gen.ReferenceIdeal.Read
import proofs.«133496_j32933809226222_1_alg».proof.Proof.RefValue
import proofs.«133496_j32933809226222_1_alg».proof.Proof.K.Run
import proofs.«133496_j32933809226222_1_alg».proof.Proof.KI.Result
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs to the end, faults nowhere and leaves its six arguments as launched. -/
theorem frame_kernel : Cert.frame_Kernel (hKernel := Cert.Kernel.Gen.facts) (hPre_finite_inputs := Cert.Pre_finite_inputs.Gen.facts) :=
  fun m ρ _ => Cert.Kernel.Run.frame (F := Bits) m ρ

/-- So does the program read over the extended reals. -/
theorem frame_ideal : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference is a straight line of host operations: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with, at entry `d` of the result, the attention step of the six
    arguments at `d` (`Cert.Spec.step`): the kernel by its two regions read block by block, the reference by its host
    operations read one at a time. No finiteness of the inputs is used: the only laws are the commutativity of a
    product, the regrouping of a sum, and `s / 64 = s · 2⁻⁶`, which hold at the infinities too. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Run.W3 m ρ c (Proc.devRef .tc Cert.KernelIdeal.main_v2), ?_, ?_⟩
  · refine (θ_run Cert.KernelIdeal.defs _ _).mono (fun _ h c => ?_) (Cert.KernelIdeal.Run.run (F := Ideal) m ρ)
    exact ⟨h c _ (Cert.KernelIdeal.Run.mem_uc Cert.KernelIdeal.main_v2 (by decide)),
      (h c _ (Cert.KernelIdeal.Run.mem_uc Cert.KernelIdeal.main_arg0 (by decide))).trans (Cert.KernelIdeal.Run.W3_main_arg0 m ρ c),
      (h c _ (Cert.KernelIdeal.Run.mem_uc Cert.KernelIdeal.main_arg1 (by decide))).trans (Cert.KernelIdeal.Run.W3_main_arg1 m ρ c),
      (h c _ (Cert.KernelIdeal.Run.mem_uc Cert.KernelIdeal.main_arg2 (by decide))).trans (Cert.KernelIdeal.Run.W3_main_arg2 m ρ c),
      (h c _ (Cert.KernelIdeal.Run.mem_uc Cert.KernelIdeal.main_arg3 (by decide))).trans (Cert.KernelIdeal.Run.W3_main_arg3 m ρ c),
      (h c _ (Cert.KernelIdeal.Run.mem_uc Cert.KernelIdeal.main_arg4 (by decide))).trans (Cert.KernelIdeal.Run.W3_main_arg4 m ρ c),
      (h c _ (Cert.KernelIdeal.Run.mem_uc Cert.KernelIdeal.main_arg5 (by decide))).trans (Cert.KernelIdeal.Run.W3_main_arg5 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, (hagree c).1, (hagree c).2.1, (hagree c).2.2.1, (hagree c).2.2.2.1,
      (hagree c).2.2.2.2.1, (hagree c).2.2.2.2.2]
    funext i
    obtain ⟨d, b, rfl⟩ : ∃ (d : Fin 4096) (b : Fin 1), i = ix2 d b := ⟨i 0, i 1, eq_ix2 i⟩
    exact (Cert.ReferenceIdeal.RefValue.result_eq _ _ _ _ _ _ d b).trans (Cert.KernelIdeal.Result.result m ρ c d b).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
